-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S16x128 .f32) (main_arg5 : FVec F S128 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x16 .f32) (main_arg3 : FVec F S16 .f32) (main_arg4 : FVec F S16x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩
abbrev S128x32 : Shape := ⟨2, ![128, 32]⟩
abbrev S1 : Shape := ⟨1, ![1]⟩
abbrev S1x32 : Shape := ⟨2, ![1, 32]⟩
abbrev S2 : Shape := ⟨1, ![2]⟩
abbrev S32x128 : Shape := ⟨2, ![32, 128]⟩
abbrev S400x10000 : Shape := ⟨2, ![400, 10000]⟩
abbrev S400x128 : Shape := ⟨2, ![400, 128]⟩
abbrev S10000x32 : Shape := ⟨2, ![10000, 32]⟩
abbrev S400x32 : Shape := ⟨2, ![400, 32]⟩

abbrev nBuf : Space → Nat
  | .hbm => 28
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S_, .f32⟩
  | .hbm, ⟨7, _⟩ => ⟨S128x32, .f32⟩
  | .hbm, ⟨8, _⟩ => ⟨S_, .i32⟩
  | .hbm, ⟨9, _⟩ => ⟨S1, .i32⟩
  | .hbm, ⟨10, _⟩ => ⟨S128x32, .f32⟩
  | .hbm, ⟨11, _⟩ => ⟨S_, .f32⟩
  | .hbm, ⟨12, _⟩ => ⟨S1x32, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x32, .f32⟩
  | .hbm, ⟨19, _⟩ => ⟨S_, .f32⟩
  | .hbm, ⟨20, _⟩ => ⟨S32x128, .f32⟩
  | .hbm, ⟨21, _⟩ => ⟨S_, .i32⟩
  | .hbm, ⟨22, _⟩ => ⟨S1, .i32⟩
  | .hbm, ⟨23, _⟩ => ⟨S32x128, .f32⟩
  | .hbm, ⟨24, _⟩ => ⟨S_, .i32⟩
  | .hbm, ⟨25, _⟩ => ⟨S1, .i32⟩
  | .hbm, ⟨26, _⟩ => ⟨S32x128, .f32⟩
  | .hbm, ⟨27, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x32, .f32⟩
  | .local _ .vmem, ⟨4, _⟩ => ⟨S1x32, .f32⟩
  | .local _ .vmem, ⟨5, _⟩ => ⟨S32x128, .f32⟩
  | .local _ .vmem, ⟨6, _⟩ => ⟨S400x128, .f32⟩
  | .local _ .vmem, ⟨7, _⟩ => ⟨S400x128, .f32⟩
  | .local _ .vmem, ⟨8, _⟩ => ⟨S10000x32, .f32⟩
  | .local _ .vmem, ⟨9, _⟩ => ⟨S10000x32, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_c_1 : Ref sig .tc := ⟨.hbm, 13, rfl⟩
abbrev main_call0_v4 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_3 : Ref sig .tc := ⟨.hbm, 19, rfl⟩
abbrev main_call0_v8 : Ref sig .tc := ⟨.hbm, 20, rfl⟩
abbrev main_call0_c_4 : Ref sig .tc := ⟨.hbm, 21, rfl⟩
abbrev main_call0_v9 : Ref sig .tc := ⟨.hbm, 22, rfl⟩
abbrev main_call0_v10 : Ref sig .tc := ⟨.hbm, 23, rfl⟩
abbrev main_call0_c_5 : Ref sig .tc := ⟨.hbm, 24, rfl⟩
abbrev main_call0_v11 : Ref sig .tc := ⟨.hbm, 25, rfl⟩
abbrev main_call0_v12 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v21 : BitVec 32 := Scalar.muli arg1 c400_i32
  let v22 : Index := Scalar.indexCast v21
  let c0_10 : Index := 0#32
  ![v22.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S128x32 : S_.BroadcastsInDim S128x32 (![] : Fin 0 → Fin S128x32.rank)
  bcast_S_S1 : S_.BroadcastsInDim S1 (![] : Fin 0 → Fin S1.rank)
  bcast_S_S1x32 : S_.BroadcastsInDim S1x32 (![] : Fin 0 → Fin S1x32.rank)
  concatenates_S1_S1_S2_d0 : Shape.Concatenates [S1, S1] S2 0
  bcast_S_S32x128 : S_.BroadcastsInDim S32x128 (![] : Fin 0 → Fin S32x128.rank)
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  iota_S400x32_d1_w32 : S400x32.Iotas .tc 32 [1]
  h_S400x32 : 0 < S400x32.numel
  shapeCasts_S400x32_S400x32 : S400x32.ShapeCasts S400x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S400x128_S400x128_0_0 : ∀ a, (![0, 0] : Fin 2 → Nat) a + S400x128.size a ≤ S400x128.size a
  h_S400x128 : 0 < S400x128.numel
  scatter_S128x32_S1_S128x16_01_n_1_0_wf : ScatterDims.WF S128x32 S1 S128x16 [0, 1] [] [1] 0
  scatter_S1x32_S2_S16_0_0_01_0_wf : ScatterDims.WF S1x32 S2 S16 [0] [0] [0, 1] 0
  scatter_S32x128_S1_S16x128_01_n_0_0_wf : ScatterDims.WF S32x128 S1 S16x128 [0, 1] [] [0] 0
  scatter_S32x128_S1_S128_0_0_0_0_wf : ScatterDims.WF S32x128 S1 S128 [0] [0] [0] 0
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x128_S400x128_1_0_0_1_n_n_wf : DotDims.WF S400x32 S32x128 S400x128 [1] [0] [0] [1] [] []
  hrank0 : 0 < grid0.rank
  k0_off1_inb : ∀ i : grid0.Coords, ∀ (k0_h2 : k0_cond2 i = 1#1), ∀ a, (k0_off1 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def scatter_S128x32_S1_S128x16_01_n_1_0 : ScatterDims S128x32 S1 S128x16 where
  updateWindowDims := [0, 1]
  insertedWindowDims := []
  scatterDimsToOperandDims := [1]
  indexVectorDim := 0
  wf := scatter_S128x32_S1_S128x16_01_n_1_0_wf
def scatter_S1x32_S2_S16_0_0_01_0 : ScatterDims S1x32 S2 S16 where
  updateWindowDims := [0]
  insertedWindowDims := [0]
  scatterDimsToOperandDims := [0, 1]
  indexVectorDim := 0
  wf := scatter_S1x32_S2_S16_0_0_01_0_wf
def scatter_S32x128_S1_S16x128_01_n_0_0 : ScatterDims S32x128 S1 S16x128 where
  updateWindowDims := [0, 1]
  insertedWindowDims := []
  scatterDimsToOperandDims := [0]
  indexVectorDim := 0
  wf := scatter_S32x128_S1_S16x128_01_n_0_0_wf
def scatter_S32x128_S1_S128_0_0_0_0 : ScatterDims S32x128 S1 S128 where
  updateWindowDims := [0]
  insertedWindowDims := [0]
  scatterDimsToOperandDims := [0]
  indexVectorDim := 0
  wf := scatter_S32x128_S1_S128_0_0_0_0_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x128_S400x128_1_0_0_1_n_n : DotDims S400x32 S32x128 S400x128 where
  lhsContracting := [1]
  rhsContracting := [0]
  lhsNonContracting := [0]
  rhsNonContracting := [1]
  lhsBatch := []
  rhsBatch := []
  wf := dot_S400x32_S32x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v12) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x128 : Shape := ⟨2, ![16, 128]⟩
abbrev S128 : Shape := ⟨1, ![128]⟩
abbrev S10000x16 : Shape := ⟨2, ![10000, 16]⟩
abbrev S1x16 : Shape := ⟨2, ![1, 16]⟩
abbrev S_ : Shape := ⟨0, ![]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S10000x16, .f32⟩
  | .hbm, ⟨7, _⟩ => ⟨S1x16, .f32⟩
  | .hbm, ⟨8, _⟩ => ⟨S10000x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x128_S10000x128_1_0_0_1_n_n_wf : DotDims.WF S10000x16 S16x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBodyDefs.lean ====
/-
  Stated here for the kernel read at the word level, where a float is its bit pattern: nothing below depends on
  what a float operation computes, only on which buffers the body loads and stores and where.
  What the three control cases of the kernel body share.

  The grid is 2 × 25, walked phase-major: point `t` has phase `t / 25` and row block `t % 25`.
  * the first `if` (compute `t = h · w0p + b0p` into the first scratch) is taken at point 0 only;
  * the second (`y[block] = [max (a_blk · t) 0 | 1 | 0 …]` into a 400-row slice of the second scratch) at the
    points of phase 0, that is `t < 25`;
  * the third (`out_blk = (a_blk · y) · w1p`) at the points of phase 1, that is `25 ≤ t`.
  The output window is idle throughout phase 0 and is not written back there.
-/
import proofs.«176305_g24318104830749_cont_sun_m_1374_5_alg».proof.Proof.Gen.Kernel.Frame
import proofs.«176305_g24318104830749_cont_sun_m_1374_5_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, decided over the grid -/

/-- The first `if`: phase 0 and row block 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second `if`: phase 0. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- The third `if`: phase 1. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- The slice of the second scratch a point of phase 0 stores: rows `400 · (t % 25)` on, all 32 columns. -/
theorem hoff (t : Fin cfg0.N) : k0_off1 (grid0.coords t) = ![400 * (t.val % 25), 0] :=
  (by decide +kernel : ∀ t : Fin grid0.N, k0_off1 (grid0.coords t) = ![400 * (t.val % 25), 0]) t

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- In phase 0 the output window is idle and its block is not written back. -/
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
/-- In phase 1 the output window is live. -/
theorem liveAt0_5 : ∀ t : Fin cfg0.N, cond0_2 (grid0.coords t) → cfg0.idle 5 (grid0.coords t) = false := by decide +kernel

/-! ## The staging and scratch memrefs the body is called with -/

abbrev VO0_5 : View sig .tc .vmem S400x128 .f32 := (Memref.whole cc0_stg5_0 : Memref sig .tc .vmem S400x128 .f32).view
abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
/-- The two scratch operands: the hidden layer `t` and the padded activation `y`. -/
abbrev scM0_0 : Memref sig .tc .vmem S10000x32 .f32 := Memref.whole cc0_scratch0
abbrev scM0_1 : Memref sig .tc .vmem S10000x32 .f32 := Memref.whole cc0_scratch1

/-- What the launch hands the region besides the windows: the two scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/-
  Stated here for the kernel read at the word level, where a float is its bit pattern: nothing below depends on
  what a float operation computes, only on which buffers the body loads and stores and where.
  The kernel body at the first point: the first and the second `if` are taken. The body stores the whole first
  scratch (the padded hidden layer), loads it back, and stores slice 0 of the second scratch.
-/
import proofs.«176305_g24318104830749_cont_sun_m_1374_5_alg».proof.Proof.KBodyDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A: the pieces the body's stores leave in the two scratch buffers, with the proof that the body runs. -/
noncomputable def kernelRun0_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) :
    Σ' (LS0 : List (View.Piece (Elt F) S10000x32 .f32)), { LS1 : List (View.Piece (Elt F) S10000x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xsT ∗ owns (c : Thread nD τ) arg9 fullShare xsY
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xsT) LS0) ∗ (arg9.view.loc (c : Thread nD τ) ↦[arg9.view.set]{fullShare} arg9.view.writes (Elt F) (harg9.unread xsY) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.Kernel.Hand

end
-- ==== Proof.KRunB.lean ====
/-
  Stated here for the kernel read at the word level, where a float is its bit pattern: nothing below depends on
  what a float operation computes, only on which buffers the body loads and stores and where.
  The kernel body at a point of phase 0 other than the first: only the second `if` is taken. The body loads the
  row block of `a` and the whole first scratch and stores one 400-row slice of the second scratch; the first
  scratch, the inputs and the (idle) output buffer are handed back as found.
-/
import proofs.«176305_g24318104830749_cont_sun_m_1374_5_alg».proof.Proof.KBodyDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B: the pieces the body's one store leaves in the second scratch, with the proof that the body runs. -/
noncomputable def kernelRun0_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) :
    { LS1 : List (View.Piece (Elt F) S10000x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xsT ∗ owns (c : Thread nD τ) arg9 fullShare xsY
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xsT ∗ (arg9.view.loc (c : Thread nD τ) ↦[arg9.view.set]{fullShare} arg9.view.writes (Elt F) (harg9.unread xsY) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexact HS1

end Cert.Kernel.Hand

end
-- ==== Proof.KRunC.lean ====
/-
  Stated here for the kernel read at the word level, where a float is its bit pattern: nothing below depends on
  what a float operation computes, only on which buffers the body loads and stores and where.
  The kernel body at a point of phase 1: only the third `if` is taken. The body loads the row block of `a`,
  the whole second scratch and the padded second-layer weights, and stores the whole output block; both scratch
  buffers are handed back as found.
-/
import proofs.«176305_g24318104830749_cont_sun_m_1374_5_alg».proof.Proof.KBodyDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case C: the pieces the body's one store leaves in the output's staging buffer, with the proof that the body runs. -/
noncomputable def kernelRun0_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x32 .f32) (x3 : Vec F S1x32 .f32) (x4 : Vec F S32x128 .f32) (xsT xsY : Vec F S10000x32 .f32) :
    { L5 : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xsT ∗ owns (c : Thread nD τ) arg9 fullShare xsY
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xsT ∗ owns (c : Thread nD τ) arg9 fullShare xsY) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.Kernel.Hand

end
-- ==== Proof.KPieces.lean ====
/-
  Stated here for the kernel read at the word level, where a float is its bit pattern: nothing below depends on
  what a float operation computes, only on which buffers the body loads and stores and where.
  What the three control cases leave behind, as values.

  * At the first point the first scratch ends at the padded hidden layer `k0_pay1 h w0p b0p` whatever it held, and
    rows `[o, o + 400)` of the second scratch (with `o` the point's row offset) end at the activation block
    `k0_pay2 a_blk (k0_pay1 h w0p b0p)`; every other row of the second scratch is kept.
  * At a later point of phase 0 rows `[o, o + 400)` of the second scratch end at `k0_pay2 a_blk t` with `t` the first
    scratch's contents; every other row is kept.
  * At a point of phase 1 the output's staging buffer ends at `k0_pay3 a_blk y w1p` with `y` the second scratch's
    contents, whatever it held.
-/
import proofs.«176305_g24318104830749_cont_sun_m_1374_5_alg».proof.Proof.KRunA
import proofs.«176305_g24318104830749_cont_sun_m_1374_5_alg».proof.Proof.KRunB
import proofs.«176305_g24318104830749_cont_sun_m_1374_5_alg».proof.Proof.KRunC
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- One store through the whole block leaves its payload, whatever was there. -/
theorem whole_store {S : Shape} (v : View sig .tc .vmem S .f32) (f : v.ty.Contents (Elt F)) (off : Fin S.rank → ℕ) (h : off = fun _ => 0)
    (inb : ∀ a, off a + S.size a ≤ S.size a) (w : S.Idx → Elt F .f32) :
    v.read (Elt F) (v.writes (Elt F) f [(⟨Rect.unit off S.size inb, w⟩ : View.Piece (Elt F) S .f32)]) = w := by
  rw [View.read_writes_eq_canon _ _ _ (fun y => ⟨_, List.mem_singleton_self _, View.mem_set_unit_zero h inb y⟩), View.canon_unit_zero h]

/-- A store of rows `[o, o + 400)` over anything, read at a row inside: the payload at the local index. -/
theorem rows_mem (v : View sig .tc .vmem S10000x32 .f32) (f : v.ty.Contents (Elt F)) (off : Fin 2 → ℕ)
    (inb : ∀ a : Fin 2, off a + S400x32.size a ≤ S10000x32.size a) (w : S400x32.Idx → Elt F .f32) (o : ℕ) (hoff : off = ![o, 0])
    (y : S10000x32.Idx) (x : S400x32.Idx)
    (hx0 : (y (0 : Fin 2)).val = o + (x (0 : Fin 2)).val) (hx1 : (y (1 : Fin 2)).val = (x (1 : Fin 2)).val) :
    v.read (Elt F) (v.writes (Elt F) f [(⟨Rect.unit (s := S10000x32) off S400x32.size inb, w⟩ : View.Piece (Elt F) S10000x32 .f32)]) y = w x :=
  View.read_writes_cons_rows_of_mem (Val := Elt F) (d := ![10000, 32]) v f (off := off) (size := ![400, 32]) (o := o) inb w [] y x hoff hx0 hx1

/-- The same store read at a row outside: what was there. -/
theorem rows_not_mem (v : View sig .tc .vmem S10000x32 .f32) (f : v.ty.Contents (Elt F)) (off : Fin 2 → ℕ)
    (inb : ∀ a : Fin 2, off a + S400x32.size a ≤ S10000x32.size a) (w : S400x32.Idx → Elt F .f32) (o : ℕ) (hoff : off = ![o, 0])
    (y : S10000x32.Idx) (h : (y (0 : Fin 2)).val < o ∨ o + 400 ≤ (y (0 : Fin 2)).val) :
    v.read (Elt F) (v.writes (Elt F) f [(⟨Rect.unit (s := S10000x32) off S400x32.size inb, w⟩ : View.Piece (Elt F) S10000x32 .f32)]) y = v.read (Elt F) f y :=
  (View.read_writes_cons_rows_of_not_mem (Val := Elt F) (d := ![10000, 32]) v f (off := off) (size := ![400, 32]) (o := o) (W := 400) inb w [] y hoff rfl h).trans (by rw [View.writes_nil])

/-- Case C: the output block is the product payload of the row block, the second scratch and the padded weights. -/
theorem outC_eq (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 hc0 hc1 hc2 x0 x1 x2 x3 x4 xsT xsY).1)
      = k0_pay3 x0 xsY x4 := by
  unfold kernelRun0_C
  dsimp only
  refine (whole_store (S := S400x128) arg7.view _ _ hz _ _).trans ?_
  simp only [View.readAt_eq_ld, harg2.read_unread, harg9.read_unread, harg6.read_unread,
    View.ld_unit_zero (S := S400x10000) hz, View.ld_unit_zero (S := S10000x32) hz, View.ld_unit_zero (S := S32x128) hz]

/-- Case B, a row inside the stored slice. -/
theorem soutB_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx) (x : S400x32.Idx)
    (hx0 : (y (0 : Fin 2)).val = o + (x (0 : Fin 2)).val) (hx1 : (y (1 : Fin 2)).val = (x (1 : Fin 2)).val) :
    arg9.view.read (Elt F) (arg9.view.writes (Elt F) (harg9.unread xsY) (kernelRun0_B c i arg2 harg2 arg3 harg3 arg4 harg4 arg5 harg5 arg6 harg6 arg7 harg7 arg8 harg8 arg9 harg9 hc0 hc1 hc2 x0 x1 x2 x3 x4 xsT xsY xi5).1) y
      = k0_pay2 x0 xsT x := by
  unfold kernelRun0_B
  dsimp only
  refine (rows_mem arg9.view _ _ _ _ o hoff y x hx0 hx1).trans ?_
  simp only [View.readAt_eq_ld, harg2.read_unread, harg8.read_unread,
    View.ld_unit_zero (S := S400x10000) hz, View.ld_unit_zero (S := S10000x32) hz]

/-- Case B, a row outside the stored slice. -/
theorem soutB_not_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx)
    (h : (y (0 : Fin 2)).val < o ∨ o + 400 ≤ (y (0 : Fin 2)).val) :
    arg9.view.read (Elt F) (arg9.view.writes (Elt F) (harg9.unread xsY) (kernelRun0_B c i arg2 harg2 arg3 harg3 arg4 harg4 arg5 harg5 arg6 harg6 arg7 harg7 arg8 harg8 arg9 harg9 hc0 hc1 hc2 x0 x1 x2 x3 x4 xsT xsY xi5).1) y
      = xsY y := by
  unfold kernelRun0_B
  dsimp only
  refine (rows_not_mem arg9.view _ _ _ _ o hoff y h).trans ?_
  rw [harg9.read_unread]

/-- Case A: the first scratch ends at the hidden-layer payload. -/
theorem soutA_T (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) :
    arg8.view.read (Elt F) (arg8.view.writes (Elt F) (harg8.unread xsT) (kernelRun0_A c i arg2 harg2 arg3 harg3 arg4 harg4 arg5 harg5 arg6 harg6 arg7 harg7 arg8 harg8 arg9 harg9 hc0 hc1 hc2 x0 x1 x2 x3 x4 xsT xsY xi5).1)
      = k0_pay1 x1 x2 x3 := by
  unfold kernelRun0_A
  dsimp only
  sl_unfold_words
  refine (whole_store (S := S10000x32) arg8.view _ _ hz _ _).trans ?_
  simp only [View.readAt_eq_ld, harg3.read_unread, harg4.read_unread, harg5.read_unread,
    View.ld_unit_zero (S := S10000x128) hz, View.ld_unit_zero (S := S128x32) hz, View.ld_unit_zero (S := S1x32) hz]

/-- Case A, a row inside the stored slice of the second scratch. -/
theorem soutA_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx) (x : S400x32.Idx)
    (hx0 : (y (0 : Fin 2)).val = o + (x (0 : Fin 2)).val) (hx1 : (y (1 : Fin 2)).val = (x (1 : Fin 2)).val) :
    arg9.view.read (Elt F) (arg9.view.writes (Elt F) (harg9.unread xsY) (kernelRun0_A c i arg2 harg2 arg3 harg3 arg4 harg4 arg5 harg5 arg6 harg6 arg7 harg7 arg8 harg8 arg9 harg9 hc0 hc1 hc2 x0 x1 x2 x3 x4 xsT xsY xi5).2.1) y
      = k0_pay2 x0 (k0_pay1 x1 x2 x3) x := by
  unfold kernelRun0_A
  dsimp only
  sl_unfold_words
  refine (rows_mem arg9.view _ _ _ _ o hoff y x hx0 hx1).trans ?_
  rw [View.readCov_unit_zero (S := S10000x32) _ hz]
  simp only [View.readAt_eq_ld, harg2.read_unread, harg3.read_unread, harg4.read_unread, harg5.read_unread,
    View.ld_unit_zero (S := S400x10000) hz, View.ld_unit_zero (S := S10000x128) hz, View.ld_unit_zero (S := S128x32) hz, View.ld_unit_zero (S := S1x32) hz]

/-- Case A, a row outside the stored slice of the second scratch. -/
theorem soutA_not_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx)
    (h : (y (0 : Fin 2)).val < o ∨ o + 400 ≤ (y (0 : Fin 2)).val) :
    arg9.view.read (Elt F) (arg9.view.writes (Elt F) (harg9.unread xsY) (kernelRun0_A c i arg2 harg2 arg3 harg3 arg4 harg4 arg5 harg5 arg6 harg6 arg7 harg7 arg8 harg8 arg9 harg9 hc0 hc1 hc2 x0 x1 x2 x3 x4 xsT xsY xi5).2.1) y
      = xsY y := by
  unfold kernelRun0_A
  dsimp only
  refine (rows_not_mem arg9.view _ _ _ _ o hoff y h).trans ?_
  rw [harg9.read_unread]

end Cert.Kernel.Hand

end
-- ==== Proof.KBody.lean ====
/-
  Stated here for the kernel read at the word level, where a float is its bit pattern: nothing below depends on
  what a float operation computes, only on which buffers the body loads and stores and where.
  The frame of the kernel, by hand: the proof data of its one pipeline, the body's obligation at every grid point
  and the run.

  The two scratch buffers are carried between grid points. The invariant before point `n` says what they hold:
  * once the first point has run (`1 ≤ n`) the first scratch is the padded hidden layer `Tval`;
  * the rows `< 400 · min n 25` of the second scratch are the padded activation `Yfull`: row `r` is row `r % 400` of
    the block that point `r / 400` of phase 0 stored.
  So throughout phase 1 the second scratch is `Yfull` whole, and the block a point of phase 1 leaves in the output's
  staging buffer is the product payload of its row block of `a`, `Yfull` and the padded second-layer weights.
-/
import proofs.«176305_g24318104830749_cont_sun_m_1374_5_alg».proof.Proof.KPieces
import Idealize.ShloMosaic.Lib.ValueIdx
import Idealize.ShloMosaic.Lib.ValueIdxCoords

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The first grid point. -/
def t00 : Fin cfg0.N := ⟨0, by rw [N50]; decide⟩

/-- The padded hidden layer `h · w0p + b0p`, as the first point computes it from its input blocks. -/
def Tval (c : Dev nD) : Vec F S10000x32 .f32 := k0_pay1 (iblk m c 1 t00) (iblk m c 2 t00) (iblk m c 3 t00)

/-- The point of phase 0 that stores row `r` of the second scratch. -/
def ptOf (r : ℕ) (hr : r < 10000) : Fin cfg0.N := ⟨r / 400, by rw [N50]; omega⟩

/-- The local index, inside a 400-row block, of an index of the second scratch. -/
def locIdx (y : S10000x32.Idx) : S400x32.Idx :=
  ix2 (⟨(y (0 : Fin 2)).val % 400, Nat.mod_lt _ (by decide)⟩ : Fin 400) (⟨(y (1 : Fin 2)).val, (y (1 : Fin 2)).isLt⟩ : Fin 32)

/-- The padded activation, whole: row `r` is row `r % 400` of the block point `r / 400` stores. -/
def Yfull (c : Dev nD) : Vec F S10000x32 .f32 := fun y =>
  k0_pay2 (iblk m c 0 (ptOf (y (0 : Fin 2)).val (y (0 : Fin 2)).isLt)) (Tval m c) (locIdx y)

theorem Yfull_at (c : Dev nD) (t : Fin cfg0.N) (y : S10000x32.Idx) (hy : (y (0 : Fin 2)).val / 400 = t.val) :
    Yfull m c y = k0_pay2 (iblk m c 0 t) (Tval m c) (locIdx y) := by
  unfold Yfull
  rw [show ptOf (y (0 : Fin 2)).val (y (0 : Fin 2)).isLt = t from Fin.ext hy]

/-- What the two scratch buffers hold before point `n`. -/
def Good (c : Dev nD) (n : ℕ) (T Y : Vec F S10000x32 .f32) : Prop :=
  (1 ≤ n → T = Tval m c) ∧ (∀ y : S10000x32.Idx, (y (0 : Fin 2)).val < 400 * min n 25 → Y y = Yfull m c y)

/-- The region invariant before point `n`: the scratch buffers at contents that are `Good`, the generator register
    at some state. -/
def Inv (c : Dev nD) (n : ℕ) : sProp 𝕄 :=
  iprop(∃ T, ∃ Y, ⌜Good m c n T Y⌝ ∗ owns (c : Thread nD τ) scM0_0 fullShare T ∗ owns (c : Thread nD τ) scM0_1 fullShare Y ∗ (∃ r, prngReg c r))

/-- The block a point leaves in the output's staging buffer (read in phase 1 only). -/
def out5 (c : Dev nD) (t : Fin cfg0.N) : Vec F S400x128 .f32 := k0_pay3 (iblk m c 0 t) (Yfull m c) (iblk m c 4 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ t := Inv m c t.val
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The invariant after the first point. -/
theorem good_A (c : Dev nD) (t : Fin cfg0.N) (h0 : t.val = 0) (T' Y' Y : Vec F S10000x32 .f32)
    (hT : T' = k0_pay1 (iblk m c 1 t) (iblk m c 2 t) (iblk m c 3 t))
    (hin : ∀ (y : S10000x32.Idx) (x : S400x32.Idx), (y (0 : Fin 2)).val = 0 + (x (0 : Fin 2)).val → (y (1 : Fin 2)).val = (x (1 : Fin 2)).val →
      Y' y = k0_pay2 (iblk m c 0 t) (k0_pay1 (iblk m c 1 t) (iblk m c 2 t) (iblk m c 3 t)) x) :
    Good m c (t.val + 1) T' Y' := by
  have ht : t = t00 := Fin.ext h0
  subst ht
  refine ⟨fun _ => hT, fun y hy => ?_⟩
  have hy' : (y (0 : Fin 2)).val < 400 := by rw [h0] at hy; simpa using hy
  rw [Yfull_at m c t00 y (by rw [h0]; omega)]
  refine hin y (locIdx y) ?_ ?_
  · show (y (0 : Fin 2)).val = 0 + (y (0 : Fin 2)).val % 400
    omega
  · rfl

/-- The invariant after a later point of phase 0. -/
theorem good_B (c : Dev nD) (t : Fin cfg0.N) (h0 : t.val ≠ 0) (h1 : t.val < 25) (T Y Y' : Vec F S10000x32 .f32)
    (hG : Good m c t.val T Y)
    (hin : ∀ (y : S10000x32.Idx) (x : S400x32.Idx), (y (0 : Fin 2)).val = 400 * t.val + (x (0 : Fin 2)).val → (y (1 : Fin 2)).val = (x (1 : Fin 2)).val →
      Y' y = k0_pay2 (iblk m c 0 t) T x)
    (hout : ∀ y : S10000x32.Idx, ((y (0 : Fin 2)).val < 400 * t.val ∨ 400 * t.val + 400 ≤ (y (0 : Fin 2)).val) → Y' y = Y y) :
    Good m c (t.val + 1) T Y' := by
  have hT : T = Tval m c := hG.1 (by omega)
  refine ⟨fun _ => hT, fun y hy => ?_⟩
  have hy' : (y (0 : Fin 2)).val < 400 * (t.val + 1) := by
    rw [show min (t.val + 1) 25 = t.val + 1 from by omega] at hy; exact hy
  by_cases hlt : (y (0 : Fin 2)).val < 400 * t.val
  · rw [hout y (Or.inl hlt)]
    exact hG.2 y (by rw [show min t.val 25 = t.val from by omega]; exact hlt)
  · rw [Yfull_at m c t y (by omega), ← hT]
    refine hin y (locIdx y) ?_ ?_
    · show (y (0 : Fin 2)).val = 400 * t.val + (y (0 : Fin 2)).val % 400
      omega
    · rfl

/-- The invariant through phase 1: nothing changes. -/
theorem good_C (c : Dev nD) (t : Fin cfg0.N) (h2 : 25 ≤ t.val) (T Y : Vec F S10000x32 .f32) (hG : Good m c t.val T Y) :
    Good m c (t.val + 1) T Y ∧ Y = Yfull m c := by
  have hY : ∀ y : S10000x32.Idx, Y y = Yfull m c y := fun y => hG.2 y (by
    have : (y (0 : Fin 2)).val < 10000 := (y (0 : Fin 2)).isLt
    rw [show min t.val 25 = 25 from by omega]; omega)
  exact ⟨⟨fun _ => hG.1 (by omega), fun y _ => hY y⟩, funext hY⟩

set_option maxHeartbeats 1600000 in
/-- The body at any point: the inputs' staging buffers hold their blocks; the closed forms of the conditions say which
    case the point is in; that case's run applies with the scratch buffers at what the invariant says, and what it
    leaves satisfies the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Inv m c (t.val + 1) from rfl, Inv_castSucc m c t]
  have hN : t.val < 50 := lt_of_lt_of_eq t.isLt N50
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  unfold Inv
  by_cases h2 : 25 ≤ t.val
  · -- phase 1
    have hc0 : ¬cond0_0 (grid0.coords t) := fun h => by have := (hcond0_0 t).mp h; omega
    have hc1 : ¬cond0_1 (grid0.coords t) := fun h => by have := (hcond0_1 t).mp h; omega
    have hc2 : cond0_2 (grid0.coords t) := (hcond0_2 t).mpr h2
    rw [show (dats m 0 c).leavesExact 5 t = owns (c : Thread nD τ) (ms0_5 t) fullShare ((dats m 0 c).after 5 t) from by
      unfold Dat.leavesExact; rw [liveAt0_5 t hc2], after0_5]
    iintro ⟨⟨%T, %Y, %hG, HS0, HS1, Hg⟩, Ho, ⟨%d0, H0⟩, ⟨%d1, H1⟩, ⟨%d2, H2⟩, ⟨%d3, H3⟩, ⟨%d4, H4⟩, ⟨%d5, H5⟩⟩
    obtain ⟨hG', rfl⟩ := good_C m c t h2 T Y hG
    iapply ((kernelRun0_C c (grid0.coords t) _ _ _ _ _ _ _ _ _ _ _ _ _ _ _ _ hc0 hc1 hc2 (iblk m c 0 t) (iblk m c 1 t) (iblk m c 2 t) (iblk m c 3 t) (iblk m c 4 t) T (Yfull m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%f5, H5⟩, HS0, HS1⟩
    isplitl [HS0 HS1 Hg]
    · iexists T, (Yfull m c)
      isplitr; · ipureintro; exact hG'
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact outC_eq c (grid0.coords t) _ _ _ _ _ _ _ _ _ _ _ _ _ _ _ _ hc0 hc1 hc2 (iblk m c 0 t) (iblk m c 1 t) (iblk m c 2 t) (iblk m c 3 t) (iblk m c 4 t) T (Yfull m c) f5
  · have hc2 : ¬cond0_2 (grid0.coords t) := fun h => h2 ((hcond0_2 t).mp h)
    have hc1 : cond0_1 (grid0.coords t) := (hcond0_1 t).mpr (by omega)
    rw [Dat.leavesExact_idle (dats m 0 c) 5 t (idleAt0_5 t hc2) (noFlush0_5 t hc2)]
    by_cases h0 : t.val = 0
    · -- the first point
      have hc0 : cond0_0 (grid0.coords t) := (hcond0_0 t).mpr h0
      have ho : k0_off1 (grid0.coords t) = ![0, 0] := by rw [hoff t, h0]
      iintro ⟨⟨%T, %Y, %hG, HS0, HS1, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 hc2 (iblk m c 0 t) (iblk m c 1 t) (iblk m c 2 t) (iblk m c 3 t) (iblk m c 4 t) T Y ((dats m 0 c).before 5 t d5)).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists _, _
        isplitr
        swap
        · isplitl [HS0]
          · unfold owns; iexists _; isplitr
            swap; · iexact HS0
            ipureintro; rfl
          isplitl [HS1]
          · unfold owns; iexists _; isplitr
            swap; · iexact HS1
            ipureintro; rfl
          iexact Hg
        ipureintro
        exact good_A m c t h0 _ _ Y
          (soutA_T c (grid0.coords t) _ _ _ _ _ _ _ _ _ _ _ _ _ _ _ _ hc0 hc1 hc2 (iblk m c 0 t) (iblk m c 1 t) (iblk m c 2 t) (iblk m c 3 t) (iblk m c 4 t) T Y _)
          (fun y x hx0 hx1 => soutA_mem c (grid0.coords t) _ _ _ _ _ _ _ _ _ _ _ _ _ _ _ _ hc0 hc1 hc2 (iblk m c 0 t) (iblk m c 1 t) (iblk m c 2 t) (iblk m c 3 t) (iblk m c 4 t) T Y _ 0 ho y x hx0 hx1)
      isplitl [Ho]; · iexact Ho
      isplitl [H0]; · iexact H0
      isplitl [H1]; · iexact H1
      isplitl [H2]; · iexact H2
      isplitl [H3]; · iexact H3
      isplitl [H4]; · iexact H4
      iexists _; iexact H5
    · -- a later point of phase 0
      have hc0 : ¬cond0_0 (grid0.coords t) := fun h => h0 ((hcond0_0 t).mp h)
      have ho : k0_off1 (grid0.coords t) = ![400 * t.val, 0] := by rw [hoff t, Nat.mod_eq_of_lt (by omega)]
      iintro ⟨⟨%T, %Y, %hG, HS0, HS1, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 hc2 (iblk m c 0 t) (iblk m c 1 t) (iblk m c 2 t) (iblk m c 3 t) (iblk m c 4 t) T Y ((dats m 0 c).before 5 t d5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists T, _
        isplitr
        swap
        · isplitl [HS0]; · iexact HS0
          isplitl [HS1]
          · unfold owns; iexists _; isplitr
            swap; · iexact HS1
            ipureintro; rfl
          iexact Hg
        ipureintro
        exact good_B m c t h0 (by omega) T Y _ hG
          (fun y x hx0 hx1 => soutB_mem c (grid0.coords t) _ _ _ _ _ _ _ _ _ _ _ _ _ _ _ _ hc0 hc1 hc2 (iblk m c 0 t) (iblk m c 1 t) (iblk m c 2 t) (iblk m c 3 t) (iblk m c 4 t) T Y _ (400 * t.val) ho y x hx0 hx1)
          (fun y hy => soutB_not_mem c (grid0.coords t) _ _ _ _ _ _ _ _ _ _ _ _ _ _ _ _ hc0 hc1 hc2 (iblk m c 0 t) (iblk m c 1 t) (iblk m c 2 t) (iblk m c 3 t) (iblk m c 4 t) T Y _ (400 * t.val) ho y hy)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch. -/
theorem hin (c : Dev nD) : Pipeline.ΦA spec0 c ⊢ (dats m 0 c).Φ 0 := by
  rw [show (dats m 0 c).Φ 0 = Inv m c 0 from rfl, PhiA0_eq]
  unfold Inv
  iintro ⟨⟨⟨%dT, HS0⟩, ⟨%dY, HS1⟩⟩, Hg⟩
  iexists dT, dY
  isplitr
  · ipureintro
    exact ⟨fun h => absurd h (by decide), fun y hy => absurd hy (by simp)⟩
  isplitl [HS0]; · iexact HS0
  isplitl [HS1]; · iexact HS1
  iexact Hg

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl, PhiA0_eq]
  unfold Inv
  iintro ⟨%T, %Y, %hG, HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.BodyDefs.lean ====
/-
  What the three control cases of the kernel body share.

  The grid is 2 × 25, walked phase-major: point `t` has phase `t / 25` and row block `t % 25`.
  * the first `if` (compute `t = h · w0p + b0p` into the first scratch) is taken at point 0 only;
  * the second (`y[block] = [max (a_blk · t) 0 | 1 | 0 …]` into a 400-row slice of the second scratch) at the
    points of phase 0, that is `t < 25`;
  * the third (`out_blk = (a_blk · y) · w1p`) at the points of phase 1, that is `25 ≤ t`.
  The output window is idle throughout phase 0 and is not written back there.
-/
import proofs.«176305_g24318104830749_cont_sun_m_1374_5_alg».proof.Proof.Gen.KernelIdeal.Frame
import proofs.«176305_g24318104830749_cont_sun_m_1374_5_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, decided over the grid -/

/-- The first `if`: phase 0 and row block 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second `if`: phase 0. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- The third `if`: phase 1. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- The slice of the second scratch a point of phase 0 stores: rows `400 · (t % 25)` on, all 32 columns. -/
theorem hoff (t : Fin cfg0.N) : k0_off1 (grid0.coords t) = ![400 * (t.val % 25), 0] :=
  (by decide +kernel : ∀ t : Fin grid0.N, k0_off1 (grid0.coords t) = ![400 * (t.val % 25), 0]) t

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- In phase 0 the output window is idle and its block is not written back. -/
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
/-- In phase 1 the output window is live. -/
theorem liveAt0_5 : ∀ t : Fin cfg0.N, cond0_2 (grid0.coords t) → cfg0.idle 5 (grid0.coords t) = false := by decide +kernel

/-! ## The staging and scratch memrefs the body is called with -/

abbrev VO0_5 : View sig .tc .vmem S400x128 .f32 := (Memref.whole cc0_stg5_0 : Memref sig .tc .vmem S400x128 .f32).view
abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
/-- The two scratch operands: the hidden layer `t` and the padded activation `y`. -/
abbrev scM0_0 : Memref sig .tc .vmem S10000x32 .f32 := Memref.whole cc0_scratch0
abbrev scM0_1 : Memref sig .tc .vmem S10000x32 .f32 := Memref.whole cc0_scratch1

/-- What the launch hands the region besides the windows: the two scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/-
  The kernel body at the first point: the first and the second `if` are taken. The body stores the whole first
  scratch (the padded hidden layer), loads it back, and stores slice 0 of the second scratch.
-/
import proofs.«176305_g24318104830749_cont_sun_m_1374_5_alg».proof.Proof.BodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A: the pieces the body's stores leave in the two scratch buffers, with the proof that the body runs. -/
noncomputable def kernelRun0_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) :
    Σ' (LS0 : List (View.Piece (Elt F) S10000x32 .f32)), { LS1 : List (View.Piece (Elt F) S10000x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xsT ∗ owns (c : Thread nD τ) arg9 fullShare xsY
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xsT) LS0) ∗ (arg9.view.loc (c : Thread nD τ) ↦[arg9.view.set]{fullShare} arg9.view.writes (Elt F) (harg9.unread xsY) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.KernelIdeal.Hand

end
-- ==== Proof.RunB.lean ====
/-
  The kernel body at a point of phase 0 other than the first: only the second `if` is taken. The body loads the
  row block of `a` and the whole first scratch and stores one 400-row slice of the second scratch; the first
  scratch, the inputs and the (idle) output buffer are handed back as found.
-/
import proofs.«176305_g24318104830749_cont_sun_m_1374_5_alg».proof.Proof.BodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B: the pieces the body's one store leaves in the second scratch, with the proof that the body runs. -/
noncomputable def kernelRun0_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) :
    { LS1 : List (View.Piece (Elt F) S10000x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xsT ∗ owns (c : Thread nD τ) arg9 fullShare xsY
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xsT ∗ (arg9.view.loc (c : Thread nD τ) ↦[arg9.view.set]{fullShare} arg9.view.writes (Elt F) (harg9.unread xsY) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexact HS1

end Cert.KernelIdeal.Hand

end
-- ==== Proof.RunC.lean ====
/-
  The kernel body at a point of phase 1: only the third `if` is taken. The body loads the row block of `a`,
  the whole second scratch and the padded second-layer weights, and stores the whole output block; both scratch
  buffers are handed back as found.
-/
import proofs.«176305_g24318104830749_cont_sun_m_1374_5_alg».proof.Proof.BodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case C: the pieces the body's one store leaves in the output's staging buffer, with the proof that the body runs. -/
noncomputable def kernelRun0_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x32 .f32) (x3 : Vec F S1x32 .f32) (x4 : Vec F S32x128 .f32) (xsT xsY : Vec F S10000x32 .f32) :
    { L5 : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xsT ∗ owns (c : Thread nD τ) arg9 fullShare xsY
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xsT ∗ owns (c : Thread nD τ) arg9 fullShare xsY) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.KernelIdeal.Hand

end
-- ==== Proof.Pieces.lean ====
/-
  What the three control cases leave behind, as values.

  * At the first point the first scratch ends at the padded hidden layer `k0_pay1 h w0p b0p` whatever it held, and
    rows `[o, o + 400)` of the second scratch (with `o` the point's row offset) end at the activation block
    `k0_pay2 a_blk (k0_pay1 h w0p b0p)`; every other row of the second scratch is kept.
  * At a later point of phase 0 rows `[o, o + 400)` of the second scratch end at `k0_pay2 a_blk t` with `t` the first
    scratch's contents; every other row is kept.
  * At a point of phase 1 the output's staging buffer ends at `k0_pay3 a_blk y w1p` with `y` the second scratch's
    contents, whatever it held.
-/
import proofs.«176305_g24318104830749_cont_sun_m_1374_5_alg».proof.Proof.RunA
import proofs.«176305_g24318104830749_cont_sun_m_1374_5_alg».proof.Proof.RunB
import proofs.«176305_g24318104830749_cont_sun_m_1374_5_alg».proof.Proof.RunC
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- One store through the whole block leaves its payload, whatever was there. -/
theorem whole_store {S : Shape} (v : View sig .tc .vmem S .f32) (f : v.ty.Contents (Elt F)) (off : Fin S.rank → ℕ) (h : off = fun _ => 0)
    (inb : ∀ a, off a + S.size a ≤ S.size a) (w : S.Idx → Elt F .f32) :
    v.read (Elt F) (v.writes (Elt F) f [(⟨Rect.unit off S.size inb, w⟩ : View.Piece (Elt F) S .f32)]) = w := by
  rw [View.read_writes_eq_canon _ _ _ (fun y => ⟨_, List.mem_singleton_self _, View.mem_set_unit_zero h inb y⟩), View.canon_unit_zero h]

/-- A store of rows `[o, o + 400)` over anything, read at a row inside: the payload at the local index. -/
theorem rows_mem (v : View sig .tc .vmem S10000x32 .f32) (f : v.ty.Contents (Elt F)) (off : Fin 2 → ℕ)
    (inb : ∀ a : Fin 2, off a + S400x32.size a ≤ S10000x32.size a) (w : S400x32.Idx → Elt F .f32) (o : ℕ) (hoff : off = ![o, 0])
    (y : S10000x32.Idx) (x : S400x32.Idx)
    (hx0 : (y (0 : Fin 2)).val = o + (x (0 : Fin 2)).val) (hx1 : (y (1 : Fin 2)).val = (x (1 : Fin 2)).val) :
    v.read (Elt F) (v.writes (Elt F) f [(⟨Rect.unit (s := S10000x32) off S400x32.size inb, w⟩ : View.Piece (Elt F) S10000x32 .f32)]) y = w x :=
  View.read_writes_cons_rows_of_mem (Val := Elt F) (d := ![10000, 32]) v f (off := off) (size := ![400, 32]) (o := o) inb w [] y x hoff hx0 hx1

/-- The same store read at a row outside: what was there. -/
theorem rows_not_mem (v : View sig .tc .vmem S10000x32 .f32) (f : v.ty.Contents (Elt F)) (off : Fin 2 → ℕ)
    (inb : ∀ a : Fin 2, off a + S400x32.size a ≤ S10000x32.size a) (w : S400x32.Idx → Elt F .f32) (o : ℕ) (hoff : off = ![o, 0])
    (y : S10000x32.Idx) (h : (y (0 : Fin 2)).val < o ∨ o + 400 ≤ (y (0 : Fin 2)).val) :
    v.read (Elt F) (v.writes (Elt F) f [(⟨Rect.unit (s := S10000x32) off S400x32.size inb, w⟩ : View.Piece (Elt F) S10000x32 .f32)]) y = v.read (Elt F) f y :=
  (View.read_writes_cons_rows_of_not_mem (Val := Elt F) (d := ![10000, 32]) v f (off := off) (size := ![400, 32]) (o := o) (W := 400) inb w [] y hoff rfl h).trans (by rw [View.writes_nil])

/-- Case C: the output block is the product payload of the row block, the second scratch and the padded weights. -/
theorem outC_eq (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 hc0 hc1 hc2 x0 x1 x2 x3 x4 xsT xsY).1)
      = k0_pay3 x0 xsY x4 := by
  unfold kernelRun0_C
  dsimp only
  refine (whole_store (S := S400x128) arg7.view _ _ hz _ _).trans ?_
  simp only [View.readAt_eq_ld, harg2.read_unread, harg9.read_unread, harg6.read_unread,
    View.ld_unit_zero (S := S400x10000) hz, View.ld_unit_zero (S := S10000x32) hz, View.ld_unit_zero (S := S32x128) hz]

/-- Case B, a row inside the stored slice. -/
theorem soutB_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx) (x : S400x32.Idx)
    (hx0 : (y (0 : Fin 2)).val = o + (x (0 : Fin 2)).val) (hx1 : (y (1 : Fin 2)).val = (x (1 : Fin 2)).val) :
    arg9.view.read (Elt F) (arg9.view.writes (Elt F) (harg9.unread xsY) (kernelRun0_B c i arg2 harg2 arg3 harg3 arg4 harg4 arg5 harg5 arg6 harg6 arg7 harg7 arg8 harg8 arg9 harg9 hc0 hc1 hc2 x0 x1 x2 x3 x4 xsT xsY xi5).1) y
      = k0_pay2 x0 xsT x := by
  unfold kernelRun0_B
  dsimp only
  refine (rows_mem arg9.view _ _ _ _ o hoff y x hx0 hx1).trans ?_
  simp only [View.readAt_eq_ld, harg2.read_unread, harg8.read_unread,
    View.ld_unit_zero (S := S400x10000) hz, View.ld_unit_zero (S := S10000x32) hz]

/-- Case B, a row outside the stored slice. -/
theorem soutB_not_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx)
    (h : (y (0 : Fin 2)).val < o ∨ o + 400 ≤ (y (0 : Fin 2)).val) :
    arg9.view.read (Elt F) (arg9.view.writes (Elt F) (harg9.unread xsY) (kernelRun0_B c i arg2 harg2 arg3 harg3 arg4 harg4 arg5 harg5 arg6 harg6 arg7 harg7 arg8 harg8 arg9 harg9 hc0 hc1 hc2 x0 x1 x2 x3 x4 xsT xsY xi5).1) y
      = xsY y := by
  unfold kernelRun0_B
  dsimp only
  refine (rows_not_mem arg9.view _ _ _ _ o hoff y h).trans ?_
  rw [harg9.read_unread]

/-- Case A: the first scratch ends at the hidden-layer payload. -/
theorem soutA_T (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) :
    arg8.view.read (Elt F) (arg8.view.writes (Elt F) (harg8.unread xsT) (kernelRun0_A c i arg2 harg2 arg3 harg3 arg4 harg4 arg5 harg5 arg6 harg6 arg7 harg7 arg8 harg8 arg9 harg9 hc0 hc1 hc2 x0 x1 x2 x3 x4 xsT xsY xi5).1)
      = k0_pay1 x1 x2 x3 := by
  unfold kernelRun0_A
  dsimp only
  sl_unfold_words
  refine (whole_store (S := S10000x32) arg8.view _ _ hz _ _).trans ?_
  simp only [View.readAt_eq_ld, harg3.read_unread, harg4.read_unread, harg5.read_unread,
    View.ld_unit_zero (S := S10000x128) hz, View.ld_unit_zero (S := S128x32) hz, View.ld_unit_zero (S := S1x32) hz]

/-- Case A, a row inside the stored slice of the second scratch. -/
theorem soutA_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx) (x : S400x32.Idx)
    (hx0 : (y (0 : Fin 2)).val = o + (x (0 : Fin 2)).val) (hx1 : (y (1 : Fin 2)).val = (x (1 : Fin 2)).val) :
    arg9.view.read (Elt F) (arg9.view.writes (Elt F) (harg9.unread xsY) (kernelRun0_A c i arg2 harg2 arg3 harg3 arg4 harg4 arg5 harg5 arg6 harg6 arg7 harg7 arg8 harg8 arg9 harg9 hc0 hc1 hc2 x0 x1 x2 x3 x4 xsT xsY xi5).2.1) y
      = k0_pay2 x0 (k0_pay1 x1 x2 x3) x := by
  unfold kernelRun0_A
  dsimp only
  sl_unfold_words
  refine (rows_mem arg9.view _ _ _ _ o hoff y x hx0 hx1).trans ?_
  rw [View.readCov_unit_zero (S := S10000x32) _ hz]
  simp only [View.readAt_eq_ld, harg2.read_unread, harg3.read_unread, harg4.read_unread, harg5.read_unread,
    View.ld_unit_zero (S := S400x10000) hz, View.ld_unit_zero (S := S10000x128) hz, View.ld_unit_zero (S := S128x32) hz, View.ld_unit_zero (S := S1x32) hz]

/-- Case A, a row outside the stored slice of the second scratch. -/
theorem soutA_not_mem (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x128 .f32) (harg6 : arg6.IsWhole) (arg7 : Memref sig .tc .vmem S400x128 .f32) (harg7 : arg7.IsWhole) (arg8 : Memref sig .tc .vmem S10000x32 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x32 .f32) (x3 : Vec F S1x32 .f32) (x4 : Vec F S32x128 .f32) (xsT xsY : Vec F S10000x32 .f32) (xi5 : Vec F S400x128 .f32) (o : ℕ) (hoff : k0_off1 i = ![o, 0]) (y : S10000x32.Idx)
    (h : (y (0 : Fin 2)).val < o ∨ o + 400 ≤ (y (0 : Fin 2)).val) :
    arg9.view.read (Elt F) (arg9.view.writes (Elt F) (harg9.unread xsY) (kernelRun0_A c i arg2 harg2 arg3 harg3 arg4 harg4 arg5 harg5 arg6 harg6 arg7 harg7 arg8 harg8 arg9 harg9 hc0 hc1 hc2 x0 x1 x2 x3 x4 xsT xsY xi5).2.1) y
      = xsY y := by
  unfold kernelRun0_A
  dsimp only
  refine (rows_not_mem arg9.view _ _ _ _ o hoff y h).trans ?_
  rw [harg9.read_unread]

end Cert.KernelIdeal.Hand

end
-- ==== Proof.Body.lean ====
/-
  The frame of the kernel, by hand: the proof data of its one pipeline, the body's obligation at every grid point
  and the run.

  The two scratch buffers are carried between grid points. The invariant before point `n` says what they hold:
  * once the first point has run (`1 ≤ n`) the first scratch is the padded hidden layer `Tval`;
  * the rows `< 400 · min n 25` of the second scratch are the padded activation `Yfull`: row `r` is row `r % 400` of
    the block that point `r / 400` of phase 0 stored.
  So throughout phase 1 the second scratch is `Yfull` whole, and the block a point of phase 1 leaves in the output's
  staging buffer is the product payload of its row block of `a`, `Yfull` and the padded second-layer weights.
-/
import proofs.«176305_g24318104830749_cont_sun_m_1374_5_alg».proof.Proof.Pieces
import Idealize.ShloMosaic.Lib.ValueIdx
import Idealize.ShloMosaic.Lib.ValueIdxCoords

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The first grid point. -/
def t00 : Fin cfg0.N := ⟨0, by rw [N50]; decide⟩

/-- The padded hidden layer `h · w0p + b0p`, as the first point computes it from its input blocks. -/
def Tval (c : Dev nD) : Vec F S10000x32 .f32 := k0_pay1 (iblk m c 1 t00) (iblk m c 2 t00) (iblk m c 3 t00)

/-- The point of phase 0 that stores row `r` of the second scratch. -/
def ptOf (r : ℕ) (hr : r < 10000) : Fin cfg0.N := ⟨r / 400, by rw [N50]; omega⟩

/-- The local index, inside a 400-row block, of an index of the second scratch. -/
def locIdx (y : S10000x32.Idx) : S400x32.Idx :=
  ix2 (⟨(y (0 : Fin 2)).val % 400, Nat.mod_lt _ (by decide)⟩ : Fin 400) (⟨(y (1 : Fin 2)).val, (y (1 : Fin 2)).isLt⟩ : Fin 32)

/-- The padded activation, whole: row `r` is row `r % 400` of the block point `r / 400` stores. -/
def Yfull (c : Dev nD) : Vec F S10000x32 .f32 := fun y =>
  k0_pay2 (iblk m c 0 (ptOf (y (0 : Fin 2)).val (y (0 : Fin 2)).isLt)) (Tval m c) (locIdx y)

theorem Yfull_at (c : Dev nD) (t : Fin cfg0.N) (y : S10000x32.Idx) (hy : (y (0 : Fin 2)).val / 400 = t.val) :
    Yfull m c y = k0_pay2 (iblk m c 0 t) (Tval m c) (locIdx y) := by
  unfold Yfull
  rw [show ptOf (y (0 : Fin 2)).val (y (0 : Fin 2)).isLt = t from Fin.ext hy]

/-- What the two scratch buffers hold before point `n`. -/
def Good (c : Dev nD) (n : ℕ) (T Y : Vec F S10000x32 .f32) : Prop :=
  (1 ≤ n → T = Tval m c) ∧ (∀ y : S10000x32.Idx, (y (0 : Fin 2)).val < 400 * min n 25 → Y y = Yfull m c y)

/-- The region invariant before point `n`: the scratch buffers at contents that are `Good`, the generator register
    at some state. -/
def Inv (c : Dev nD) (n : ℕ) : sProp 𝕄 :=
  iprop(∃ T, ∃ Y, ⌜Good m c n T Y⌝ ∗ owns (c : Thread nD τ) scM0_0 fullShare T ∗ owns (c : Thread nD τ) scM0_1 fullShare Y ∗ (∃ r, prngReg c r))

/-- The block a point leaves in the output's staging buffer (read in phase 1 only). -/
def out5 (c : Dev nD) (t : Fin cfg0.N) : Vec F S400x128 .f32 := k0_pay3 (iblk m c 0 t) (Yfull m c) (iblk m c 4 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ t := Inv m c t.val
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The invariant after the first point. -/
theorem good_A (c : Dev nD) (t : Fin cfg0.N) (h0 : t.val = 0) (T' Y' Y : Vec F S10000x32 .f32)
    (hT : T' = k0_pay1 (iblk m c 1 t) (iblk m c 2 t) (iblk m c 3 t))
    (hin : ∀ (y : S10000x32.Idx) (x : S400x32.Idx), (y (0 : Fin 2)).val = 0 + (x (0 : Fin 2)).val → (y (1 : Fin 2)).val = (x (1 : Fin 2)).val →
      Y' y = k0_pay2 (iblk m c 0 t) (k0_pay1 (iblk m c 1 t) (iblk m c 2 t) (iblk m c 3 t)) x) :
    Good m c (t.val + 1) T' Y' := by
  have ht : t = t00 := Fin.ext h0
  subst ht
  refine ⟨fun _ => hT, fun y hy => ?_⟩
  have hy' : (y (0 : Fin 2)).val < 400 := by rw [h0] at hy; simpa using hy
  rw [Yfull_at m c t00 y (by rw [h0]; omega)]
  refine hin y (locIdx y) ?_ ?_
  · show (y (0 : Fin 2)).val = 0 + (y (0 : Fin 2)).val % 400
    omega
  · rfl

/-- The invariant after a later point of phase 0. -/
theorem good_B (c : Dev nD) (t : Fin cfg0.N) (h0 : t.val ≠ 0) (h1 : t.val < 25) (T Y Y' : Vec F S10000x32 .f32)
    (hG : Good m c t.val T Y)
    (hin : ∀ (y : S10000x32.Idx) (x : S400x32.Idx), (y (0 : Fin 2)).val = 400 * t.val + (x (0 : Fin 2)).val → (y (1 : Fin 2)).val = (x (1 : Fin 2)).val →
      Y' y = k0_pay2 (iblk m c 0 t) T x)
    (hout : ∀ y : S10000x32.Idx, ((y (0 : Fin 2)).val < 400 * t.val ∨ 400 * t.val + 400 ≤ (y (0 : Fin 2)).val) → Y' y = Y y) :
    Good m c (t.val + 1) T Y' := by
  have hT : T = Tval m c := hG.1 (by omega)
  refine ⟨fun _ => hT, fun y hy => ?_⟩
  have hy' : (y (0 : Fin 2)).val < 400 * (t.val + 1) := by
    rw [show min (t.val + 1) 25 = t.val + 1 from by omega] at hy; exact hy
  by_cases hlt : (y (0 : Fin 2)).val < 400 * t.val
  · rw [hout y (Or.inl hlt)]
    exact hG.2 y (by rw [show min t.val 25 = t.val from by omega]; exact hlt)
  · rw [Yfull_at m c t y (by omega), ← hT]
    refine hin y (locIdx y) ?_ ?_
    · show (y (0 : Fin 2)).val = 400 * t.val + (y (0 : Fin 2)).val % 400
      omega
    · rfl

/-- The invariant through phase 1: nothing changes. -/
theorem good_C (c : Dev nD) (t : Fin cfg0.N) (h2 : 25 ≤ t.val) (T Y : Vec F S10000x32 .f32) (hG : Good m c t.val T Y) :
    Good m c (t.val + 1) T Y ∧ Y = Yfull m c := by
  have hY : ∀ y : S10000x32.Idx, Y y = Yfull m c y := fun y => hG.2 y (by
    have : (y (0 : Fin 2)).val < 10000 := (y (0 : Fin 2)).isLt
    rw [show min t.val 25 = 25 from by omega]; omega)
  exact ⟨⟨fun _ => hG.1 (by omega), fun y _ => hY y⟩, funext hY⟩

set_option maxHeartbeats 1600000 in
/-- The body at any point: the inputs' staging buffers hold their blocks; the closed forms of the conditions say which
    case the point is in; that case's run applies with the scratch buffers at what the invariant says, and what it
    leaves satisfies the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Inv m c (t.val + 1) from rfl, Inv_castSucc m c t]
  have hN : t.val < 50 := lt_of_lt_of_eq t.isLt N50
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  unfold Inv
  by_cases h2 : 25 ≤ t.val
  · -- phase 1
    have hc0 : ¬cond0_0 (grid0.coords t) := fun h => by have := (hcond0_0 t).mp h; omega
    have hc1 : ¬cond0_1 (grid0.coords t) := fun h => by have := (hcond0_1 t).mp h; omega
    have hc2 : cond0_2 (grid0.coords t) := (hcond0_2 t).mpr h2
    rw [show (dats m 0 c).leavesExact 5 t = owns (c : Thread nD τ) (ms0_5 t) fullShare ((dats m 0 c).after 5 t) from by
      unfold Dat.leavesExact; rw [liveAt0_5 t hc2], after0_5]
    iintro ⟨⟨%T, %Y, %hG, HS0, HS1, Hg⟩, Ho, ⟨%d0, H0⟩, ⟨%d1, H1⟩, ⟨%d2, H2⟩, ⟨%d3, H3⟩, ⟨%d4, H4⟩, ⟨%d5, H5⟩⟩
    obtain ⟨hG', rfl⟩ := good_C m c t h2 T Y hG
    iapply ((kernelRun0_C c (grid0.coords t) _ _ _ _ _ _ _ _ _ _ _ _ _ _ _ _ hc0 hc1 hc2 (iblk m c 0 t) (iblk m c 1 t) (iblk m c 2 t) (iblk m c 3 t) (iblk m c 4 t) T (Yfull m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%f5, H5⟩, HS0, HS1⟩
    isplitl [HS0 HS1 Hg]
    · iexists T, (Yfull m c)
      isplitr; · ipureintro; exact hG'
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact outC_eq c (grid0.coords t) _ _ _ _ _ _ _ _ _ _ _ _ _ _ _ _ hc0 hc1 hc2 (iblk m c 0 t) (iblk m c 1 t) (iblk m c 2 t) (iblk m c 3 t) (iblk m c 4 t) T (Yfull m c) f5
  · have hc2 : ¬cond0_2 (grid0.coords t) := fun h => h2 ((hcond0_2 t).mp h)
    have hc1 : cond0_1 (grid0.coords t) := (hcond0_1 t).mpr (by omega)
    rw [Dat.leavesExact_idle (dats m 0 c) 5 t (idleAt0_5 t hc2) (noFlush0_5 t hc2)]
    by_cases h0 : t.val = 0
    · -- the first point
      have hc0 : cond0_0 (grid0.coords t) := (hcond0_0 t).mpr h0
      have ho : k0_off1 (grid0.coords t) = ![0, 0] := by rw [hoff t, h0]
      iintro ⟨⟨%T, %Y, %hG, HS0, HS1, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 hc2 (iblk m c 0 t) (iblk m c 1 t) (iblk m c 2 t) (iblk m c 3 t) (iblk m c 4 t) T Y ((dats m 0 c).before 5 t d5)).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists _, _
        isplitr
        swap
        · isplitl [HS0]
          · unfold owns; iexists _; isplitr
            swap; · iexact HS0
            ipureintro; rfl
          isplitl [HS1]
          · unfold owns; iexists _; isplitr
            swap; · iexact HS1
            ipureintro; rfl
          iexact Hg
        ipureintro
        exact good_A m c t h0 _ _ Y
          (soutA_T c (grid0.coords t) _ _ _ _ _ _ _ _ _ _ _ _ _ _ _ _ hc0 hc1 hc2 (iblk m c 0 t) (iblk m c 1 t) (iblk m c 2 t) (iblk m c 3 t) (iblk m c 4 t) T Y _)
          (fun y x hx0 hx1 => soutA_mem c (grid0.coords t) _ _ _ _ _ _ _ _ _ _ _ _ _ _ _ _ hc0 hc1 hc2 (iblk m c 0 t) (iblk m c 1 t) (iblk m c 2 t) (iblk m c 3 t) (iblk m c 4 t) T Y _ 0 ho y x hx0 hx1)
      isplitl [Ho]; · iexact Ho
      isplitl [H0]; · iexact H0
      isplitl [H1]; · iexact H1
      isplitl [H2]; · iexact H2
      isplitl [H3]; · iexact H3
      isplitl [H4]; · iexact H4
      iexists _; iexact H5
    · -- a later point of phase 0
      have hc0 : ¬cond0_0 (grid0.coords t) := fun h => h0 ((hcond0_0 t).mp h)
      have ho : k0_off1 (grid0.coords t) = ![400 * t.val, 0] := by rw [hoff t, Nat.mod_eq_of_lt (by omega)]
      iintro ⟨⟨%T, %Y, %hG, HS0, HS1, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 hc2 (iblk m c 0 t) (iblk m c 1 t) (iblk m c 2 t) (iblk m c 3 t) (iblk m c 4 t) T Y ((dats m 0 c).before 5 t d5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists T, _
        isplitr
        swap
        · isplitl [HS0]; · iexact HS0
          isplitl [HS1]
          · unfold owns; iexists _; isplitr
            swap; · iexact HS1
            ipureintro; rfl
          iexact Hg
        ipureintro
        exact good_B m c t h0 (by omega) T Y _ hG
          (fun y x hx0 hx1 => soutB_mem c (grid0.coords t) _ _ _ _ _ _ _ _ _ _ _ _ _ _ _ _ hc0 hc1 hc2 (iblk m c 0 t) (iblk m c 1 t) (iblk m c 2 t) (iblk m c 3 t) (iblk m c 4 t) T Y _ (400 * t.val) ho y x hx0 hx1)
          (fun y hy => soutB_not_mem c (grid0.coords t) _ _ _ _ _ _ _ _ _ _ _ _ _ _ _ _ hc0 hc1 hc2 (iblk m c 0 t) (iblk m c 1 t) (iblk m c 2 t) (iblk m c 3 t) (iblk m c 4 t) T Y _ (400 * t.val) ho y hy)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch. -/
theorem hin (c : Dev nD) : Pipeline.ΦA spec0 c ⊢ (dats m 0 c).Φ 0 := by
  rw [show (dats m 0 c).Φ 0 = Inv m c 0 from rfl, PhiA0_eq]
  unfold Inv
  iintro ⟨⟨⟨%dT, HS0⟩, ⟨%dY, HS1⟩⟩, Hg⟩
  iexists dT, dY
  isplitr
  · ipureintro
    exact ⟨fun h => absurd h (by decide), fun y hy => absurd hy (by simp)⟩
  isplitl [HS0]; · iexact HS0
  isplitl [HS1]; · iexact HS1
  iexact Hg

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl, PhiA0_eq]
  unfold Inv
  iintro ⟨%T, %Y, %hG, HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Payload.lean ====
/-
  The three arithmetic payloads of the kernel body, each read at one entry over the extended reals:

  * the hidden pre-activation `h · w0p + b0p` (a product into a zero accumulator plus the bias row read at
    every row);
  * the padded activation of a block of 400 rows: column 16 is the constant one, every other column
    `max (a · hid) 0`;
  * the output block `(a · act) · w1p` (two products into zero accumulators).

  A product into a zero accumulator at an entry is the sum, over the contracted axis, of the left operand's row
  against the right operand's column: the contraction index of a one-axis contraction is re-indexed by its one
  coordinate, and the operands' indices are read off the dimension numbers `[1] x [0]`.
-/
import proofs.«176305_g24318104830749_cont_sun_m_1374_5_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem
open scoped BigOperators

/-! ### The first-layer product `[10000,128] · [128,32]` -/

theorem mm1_lhs0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem mm1_lhs1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem mm1_rhs0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem mm1_rhs1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The product into a zero accumulator, at an entry, is the sum over the contracted axis of the
    left operand's row against the right operand's column. -/
theorem mm1_apply (x : FVec Ideal S10000x128 .f32) (w : FVec Ideal S128x32 .f32) (p : Fin 10000) (c : Fin 32) :
    matmul dot_S10000x128_S128x32_S10000x32_1_0_0_1_n_n none x w (constant (F := Ideal) S10000x32 .f32 0x00000000#32) (ix2 p c)
      = ∑ d : Fin 128, x (ix2 p d) * w (ix2 d c) := by
  simp only [matmul]
  rw [Ideal.matmul_constant_zero_apply, ← Equiv.sum_comp (contrEquiv1 dot_S10000x128_S128x32_S10000x32_1_0_0_1_n_n 128 rfl rfl).symm]
  refine Finset.sum_congr rfl fun d _ => ?_
  have hk := contrEquiv1_symm_val dot_S10000x128_S128x32_S10000x32_1_0_0_1_n_n 128 rfl rfl d
  have el : dot_S10000x128_S128x32_S10000x32_1_0_0_1_n_n.lhsIdx (ix2 p c) ((contrEquiv1 dot_S10000x128_S128x32_S10000x32_1_0_0_1_n_n 128 rfl rfl).symm d) = ix2 p d := funext fun a => Fin.ext (by
    match a with
    | ⟨0, _⟩ => exact mm1_lhs0 _ _
    | ⟨1, _⟩ => exact (mm1_lhs1 _ _).trans hk)
  have er : dot_S10000x128_S128x32_S10000x32_1_0_0_1_n_n.rhsIdx (ix2 p c) ((contrEquiv1 dot_S10000x128_S128x32_S10000x32_1_0_0_1_n_n 128 rfl rfl).symm d) = ix2 d c := funext fun a => Fin.ext (by
    match a with
    | ⟨0, _⟩ => exact (mm1_rhs0 _ _).trans hk
    | ⟨1, _⟩ => exact mm1_rhs1 _ _)
  rw [el, er]

/-! ### The aggregation product `[400,10000] · [10000,32]` -/

theorem mm2_lhs0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem mm2_lhs1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem mm2_rhs0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem mm2_rhs1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The product into a zero accumulator, at an entry, is the sum over the contracted axis of the
    left operand's row against the right operand's column. -/
theorem mm2_apply (x : FVec Ideal S400x10000 .f32) (w : FVec Ideal S10000x32 .f32) (p : Fin 400) (c : Fin 32) :
    matmul dot_S400x10000_S10000x32_S400x32_1_0_0_1_n_n none x w (constant (F := Ideal) S400x32 .f32 0x00000000#32) (ix2 p c)
      = ∑ d : Fin 10000, x (ix2 p d) * w (ix2 d c) := by
  simp only [matmul]
  rw [Ideal.matmul_constant_zero_apply, ← Equiv.sum_comp (contrEquiv1 dot_S400x10000_S10000x32_S400x32_1_0_0_1_n_n 10000 rfl rfl).symm]
  refine Finset.sum_congr rfl fun d _ => ?_
  have hk := contrEquiv1_symm_val dot_S400x10000_S10000x32_S400x32_1_0_0_1_n_n 10000 rfl rfl d
  have el : dot_S400x10000_S10000x32_S400x32_1_0_0_1_n_n.lhsIdx (ix2 p c) ((contrEquiv1 dot_S400x10000_S10000x32_S400x32_1_0_0_1_n_n 10000 rfl rfl).symm d) = ix2 p d := funext fun a => Fin.ext (by
    match a with
    | ⟨0, _⟩ => exact mm2_lhs0 _ _
    | ⟨1, _⟩ => exact (mm2_lhs1 _ _).trans hk)
  have er : dot_S400x10000_S10000x32_S400x32_1_0_0_1_n_n.rhsIdx (ix2 p c) ((contrEquiv1 dot_S400x10000_S10000x32_S400x32_1_0_0_1_n_n 10000 rfl rfl).symm d) = ix2 d c := funext fun a => Fin.ext (by
    match a with
    | ⟨0, _⟩ => exact (mm2_rhs0 _ _).trans hk
    | ⟨1, _⟩ => exact mm2_rhs1 _ _)
  rw [el, er]

/-! ### The second-layer product `[400,32] · [32,128]` -/

theorem mm3_lhs0 (i : S400x128.Idx) (q : dot_S400x32_S32x128_S400x128_1_0_0_1_n_n.contr.Idx) :
    (dot_S400x32_S32x128_S400x128_1_0_0_1_n_n.lhsIdx i q 0).val = (i 0).val := by
  unfold DotDims.lhsIdx
  rw [dif_neg (show ¬(0 : Fin S400x32.rank) ∈ dot_S400x32_S32x128_S400x128_1_0_0_1_n_n.lhsBatch by decide), dif_pos (show (0 : Fin S400x32.rank) ∈ dot_S400x32_S32x128_S400x128_1_0_0_1_n_n.lhsNonContracting by decide)]
  rfl
theorem mm3_lhs1 (i : S400x128.Idx) (q : dot_S400x32_S32x128_S400x128_1_0_0_1_n_n.contr.Idx) :
    (dot_S400x32_S32x128_S400x128_1_0_0_1_n_n.lhsIdx i q 1).val = (q ⟨0, by decide⟩).val :=
  dot_S400x32_S32x128_S400x128_1_0_0_1_n_n.lhsIdx_val_of_single rfl i q
theorem mm3_rhs0 (i : S400x128.Idx) (q : dot_S400x32_S32x128_S400x128_1_0_0_1_n_n.contr.Idx) :
    (dot_S400x32_S32x128_S400x128_1_0_0_1_n_n.rhsIdx i q 0).val = (q ⟨0, by decide⟩).val :=
  dot_S400x32_S32x128_S400x128_1_0_0_1_n_n.rhsIdx_val_of_single rfl i q
theorem mm3_rhs1 (i : S400x128.Idx) (q : dot_S400x32_S32x128_S400x128_1_0_0_1_n_n.contr.Idx) :
    (dot_S400x32_S32x128_S400x128_1_0_0_1_n_n.rhsIdx i q 1).val = (i 1).val := by
  unfold DotDims.rhsIdx
  rw [dif_neg (show ¬(1 : Fin S32x128.rank) ∈ dot_S400x32_S32x128_S400x128_1_0_0_1_n_n.rhsBatch by decide), dif_pos (show (1 : Fin S32x128.rank) ∈ dot_S400x32_S32x128_S400x128_1_0_0_1_n_n.rhsNonContracting by decide)]
  rfl

/-- The product into a zero accumulator, at an entry, is the sum over the contracted axis of the
    left operand's row against the right operand's column. -/
theorem mm3_apply (x : FVec Ideal S400x32 .f32) (w : FVec Ideal S32x128 .f32) (p : Fin 400) (c : Fin 128) :
    matmul dot_S400x32_S32x128_S400x128_1_0_0_1_n_n none x w (constant (F := Ideal) S400x128 .f32 0x00000000#32) (ix2 p c)
      = ∑ d : Fin 32, x (ix2 p d) * w (ix2 d c) := by
  simp only [matmul]
  rw [Ideal.matmul_constant_zero_apply, ← Equiv.sum_comp (contrEquiv1 dot_S400x32_S32x128_S400x128_1_0_0_1_n_n 32 rfl rfl).symm]
  refine Finset.sum_congr rfl fun d _ => ?_
  have hk := contrEquiv1_symm_val dot_S400x32_S32x128_S400x128_1_0_0_1_n_n 32 rfl rfl d
  have el : dot_S400x32_S32x128_S400x128_1_0_0_1_n_n.lhsIdx (ix2 p c) ((contrEquiv1 dot_S400x32_S32x128_S400x128_1_0_0_1_n_n 32 rfl rfl).symm d) = ix2 p d := funext fun a => Fin.ext (by
    match a with
    | ⟨0, _⟩ => exact mm3_lhs0 _ _
    | ⟨1, _⟩ => exact (mm3_lhs1 _ _).trans hk)
  have er : dot_S400x32_S32x128_S400x128_1_0_0_1_n_n.rhsIdx (ix2 p c) ((contrEquiv1 dot_S400x32_S32x128_S400x128_1_0_0_1_n_n 32 rfl rfl).symm d) = ix2 d c := funext fun a => Fin.ext (by
    match a with
    | ⟨0, _⟩ => exact (mm3_rhs0 _ _).trans hk
    | ⟨1, _⟩ => exact mm3_rhs1 _ _)
  rw [el, er]

/-- The hidden pre-activation block: the features' row against the padded weights' column, plus the
    padded bias's entry (the one row of the bias is read at every row). -/
theorem pay1_apply (v11 : Vec Ideal S10000x128 .f32) (v12 : Vec Ideal S128x32 .f32) (v15 : Vec Ideal S1x32 .f32)
    (k : Fin 10000) (j : Fin 32) :
    Gen.k0_pay1 (F := Ideal) v11 v12 v15 (ix2 k j)
      = (∑ d : Fin 128, v11 (ix2 k d) * v12 (ix2 d j)) + v15 (ix2 0 j) := by
  unfold Gen.k0_pay1
  simp only [shapeCast_self]
  exact congrArg₂ (· + ·) (mm1_apply v11 v12 k j) (broadcastTo_1b_ab_apply v15 _ k j)

/-! ### The two float literals and the lane mask -/

/-- The word `0x3F800000` is the number one. -/
theorem ofBits_one_f32 : Ideal.ofBits .f32 0x3F800000#32 = 1 := by
  simp [Ideal.ofBits, Ideal.ieee, -EReal.coe_mul]; norm_num

/-- The lane mask `iota(axis 1) == 16` at column `j`. -/
theorem lane_mask (r : Fin 400) (j : Fin 32) :
    cmpi .eq (iota .tc S400x32 32 [1] iota_S400x32_d1_w32) (broadcast S400x32 16#32) (ix2 r j)
      = if j.val = 16 then 1#1 else 0#1 := by
  show IntOp.cmpi .eq (iota .tc S400x32 32 [1] iota_S400x32_d1_w32 (ix2 r j)) 16#32 = _
  rw [iota_single_apply]
  show IntOp.cmpi .eq (BitVec.ofNat 32 j.val) 16#32 = _
  revert j; decide

/-- The padded activation block: column 16 is the constant one, every other column the positive part of
    the adjacency rows against the hidden pre-activation's column. -/
theorem pay2_apply (v11 : Vec Ideal S400x10000 .f32) (v12 : Vec Ideal S10000x32 .f32) (r : Fin 400) (j : Fin 32) :
    Gen.k0_pay2 (F := Ideal) v11 v12 (ix2 r j)
      = if j.val = 16 then (1 : EReal) else max (∑ k : Fin 10000, v11 (ix2 r k) * v12 (ix2 k j)) 0 := by
  unfold Gen.k0_pay2
  simp only [shapeCast_self]
  rw [select_apply, lane_mask]
  split
  · rw [select_one]
    exact ofBits_one_f32
  · rw [select_zero]
    refine (maximumf_apply _ _ _).trans ?_
    rw [mm2_apply]
    exact congrArg (max _) Ideal.ofBits_zero_f32

/-- The output block: the aggregated activation's row against the padded second-layer weights' column. -/
theorem pay3_apply (v11 : Vec Ideal S400x10000 .f32) (v12 : Vec Ideal S10000x32 .f32) (v14 : Vec Ideal S32x128 .f32)
    (r : Fin 400) (c : Fin 128) :
    Gen.k0_pay3 (F := Ideal) v11 v12 v14 (ix2 r c)
      = ∑ j : Fin 32, (∑ k : Fin 10000, v11 (ix2 r k) * v12 (ix2 k j)) * v14 (ix2 j c) := by
  unfold Gen.k0_pay3
  simp only [shapeCast_self]
  refine (mm3_apply _ _ r c).trans ?_
  exact Finset.sum_congr rfl fun j _ => congrArg (· * v14 (ix2 j c)) (mm2_apply v11 v12 r j)

end Cert.KernelIdeal.PayValue

end
-- ==== Proof.Spec.lean ====
/-
  The mathematics of the two programs, with no program in sight: a two-layer graph convolution
  `out = a · (relu(a · (h · W0 + b0)) · W1 + b1)` over the extended reals.

  * The reference side (`hidR`, `actR`, `linR`, `outR`) is that formula read left to right.
  * The kernel side (`w0p`, `b0p`, `w1p`, `hidK`, `actK`, `outK`) pads the hidden width from 16 to 32: the
    first-layer weights and bias get zero columns, the activation gets a column of ones at position 16 and the
    second-layer weights get the bias `b1` as row 16 and zero rows below. The product
    `(a · act) · w1p` then carries `rowsum(a) · b1` through the ones column.
  The two agree when every entry is a real number (distributivity of the finite sums).
-/
import Mathlib.Data.EReal.Basic
import Mathlib.Algebra.BigOperators.Group.Finset.Basic
import Mathlib.Data.Fintype.BigOperators

noncomputable section

namespace Cert.Spec

open scoped BigOperators

variable (a : Fin 10000 → Fin 10000 → EReal) (h : Fin 10000 → Fin 128 → EReal)
  (W0 : Fin 128 → Fin 16 → EReal) (b0 : Fin 16 → EReal) (W1 : Fin 16 → Fin 128 → EReal) (b1 : Fin 128 → EReal)

/-- First-layer weights with zero columns 16..31. -/
def w0p (d : Fin 128) (j : Fin 32) : EReal := if hj : j.val < 16 then W0 d ⟨j.val, hj⟩ else 0

/-- First-layer bias with zero entries 16..31. -/
def b0p (j : Fin 32) : EReal := if hj : j.val < 16 then b0 ⟨j.val, hj⟩ else 0

/-- Second-layer weights with `b1` as row 16 and zero rows 17..31. -/
def w1p (j : Fin 32) (c : Fin 128) : EReal :=
  if hj : j.val < 16 then W1 ⟨j.val, hj⟩ c else if j.val = 16 then b1 c else 0

/-- The padded hidden pre-activation `h · w0p + b0p`. -/
def hidK (k : Fin 10000) (j : Fin 32) : EReal := (∑ d : Fin 128, h k d * w0p W0 d j) + b0p b0 j

/-- The padded activation: column 16 is the constant one, every other column `max (a · hid) 0`. -/
def actK (k : Fin 10000) (j : Fin 32) : EReal :=
  if j.val = 16 then 1 else max (∑ k' : Fin 10000, a k k' * hidK h W0 b0 k' j) 0

/-- The kernel's result: `(a · act) · w1p`. -/
def outK (r : Fin 10000) (c : Fin 128) : EReal :=
  ∑ j : Fin 32, (∑ k : Fin 10000, a r k * actK a h W0 b0 k j) * w1p W1 b1 j c

/-- The hidden pre-activation `h · W0 + b0`. -/
def hidR (k : Fin 10000) (j : Fin 16) : EReal := (∑ d : Fin 128, h k d * W0 d j) + b0 j

/-- The activation `max (a · hid) 0`. -/
def actR (k : Fin 10000) (j : Fin 16) : EReal := max (∑ k' : Fin 10000, a k k' * hidR h W0 b0 k' j) 0

/-- The second layer before aggregation: `act · W1 + b1`. -/
def linR (k : Fin 10000) (c : Fin 128) : EReal := (∑ j : Fin 16, actR a h W0 b0 k j * W1 j c) + b1 c

/-- The reference's result: `a · (act · W1 + b1)`. -/
def outR (r : Fin 10000) (c : Fin 128) : EReal := ∑ k : Fin 10000, a r k * linR a h W0 b0 W1 b1 k c

end Cert.Spec

end
-- ==== Proof.HostPad.lean ====
/-
  The three arrays the host pads before the region, read at an index: each is a `stablehlo.scatter` of a launch
  array into a tensor of zeros, at a literal start. A scatter whose body returns the update, read at one operand
  index, is the update's element where exactly one update index lands there and the operand's element where none
  does; for these scatters (one start index, a full window) the landing index is "start plus update index".
-/
import proofs.«176305_g24318104830749_cont_sun_m_1374_5_alg».proof.Proof.Gen.KernelIdeal.Frame
import proofs.«176305_g24318104830749_cont_sun_m_1374_5_alg».proof.Proof.Spec
import Idealize.ShloMosaic.Lib.ValueIdx
import Idealize.ShloMosaic.Lib.StableHlo.Run
import Idealize.ShloMosaic.Lib.Pipeline.Value
import Idealize.ShloMosaic.PureOps.Ideal.Laws

noncomputable section

namespace Cert.KernelIdeal.HostPad

open Idealize.ShloMosaic Idealize.ShloMosaic.TcCoe Idealize.ShloMosaic.Tactic
open Idealize.ShloMosaic.ValueIdx
open Idealize.SL.Sem

/-! ## A scatter read at one index

  `Host.scatter` folds over the update's indices in row-major order; each update index `j` names at most one
  operand index (`ScatterDims.resultIdx?`). Read at one operand index `i`, the fold leaves the operand's element
  when no update index names `i`, and — when the body returns the update — the update's element at `j₀` when
  `j₀` is the one update index that names `i`. -/

section Scatter

variable {α : Type} {s si u : Shape} {w : Nat}

/-- One step of the fold. -/
private def scatStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

private theorem scatter_eq_foldl (d : ScatterDims s si u) (f : α → α → α) (x : s.Idx → α) (idx : IVec si w) (upd : u.Idx → α) :
    Host.scatter d f x idx upd = (List.finRange u.numel).foldl (scatStep d f idx upd) x := rfl

/-- A step whose update index does not name `i` leaves the element at `i`. -/
private theorem scatStep_of_ne (d : ScatterDims s si u) (f : α → α → α) (idx : IVec si w) (upd : u.Idx → α)
    (r : s.Idx → α) (n : Fin u.numel) (i : s.Idx) (h : d.resultIdx? (u.rowMajor.symm n) idx ≠ some i) :
    scatStep d f idx upd r n i = r i := by
  unfold scatStep
  cases hr : d.resultIdx? (u.rowMajor.symm n) idx with
  | none => rfl
  | some i0 =>
    have hne : i ≠ i0 := fun e => h (by rw [hr, e])
    simp only [if_neg hne]

/-- A step whose update index names `i`, the body returning the update, writes the update's element at `i`. -/
private theorem scatStep_of_eq (d : ScatterDims s si u) (idx : IVec si w) (upd : u.Idx → α)
    (r : s.Idx → α) (n : Fin u.numel) (i : s.Idx) (h : d.resultIdx? (u.rowMajor.symm n) idx = some i) :
    scatStep d (fun _ b => b) idx upd r n i = upd (u.rowMajor.symm n) := by
  unfold scatStep
  rw [h]
  simp only [if_true]

private theorem foldl_of_miss (d : ScatterDims s si u) (f : α → α → α) (idx : IVec si w) (upd : u.Idx → α) (i : s.Idx) :
    ∀ (l : List (Fin u.numel)) (x : s.Idx → α), (∀ n ∈ l, d.resultIdx? (u.rowMajor.symm n) idx ≠ some i) →
      l.foldl (scatStep d f idx upd) x i = x i := by
  intro l
  induction l with
  | nil => intro x _; rfl
  | cons n l ih =>
    intro x h
    rw [List.foldl_cons, ih _ (fun n' hn' => h n' (List.mem_cons_of_mem _ hn'))]
    exact scatStep_of_ne d f idx upd x n i (h n List.mem_cons_self)

private theorem foldl_of_hit (d : ScatterDims s si u) (idx : IVec si w) (upd : u.Idx → α) (i : s.Idx) (c : α) :
    ∀ (l : List (Fin u.numel)) (x : s.Idx → α),
      (∀ n ∈ l, d.resultIdx? (u.rowMajor.symm n) idx = some i → upd (u.rowMajor.symm n) = c) →
      (∃ n ∈ l, d.resultIdx? (u.rowMajor.symm n) idx = some i) →
      l.foldl (scatStep d (fun _ b => b) idx upd) x i = c := by
  intro l
  induction l with
  | nil => intro x _ h; obtain ⟨n, hn, _⟩ := h; cases hn
  | cons n l ih =>
    intro x hv hex
    rw [List.foldl_cons]
    by_cases hl : ∃ n' ∈ l, d.resultIdx? (u.rowMajor.symm n') idx = some i
    · exact ih _ (fun n' hn' => hv n' (List.mem_cons_of_mem _ hn')) hl
    · have hmiss : ∀ n' ∈ l, d.resultIdx? (u.rowMajor.symm n') idx ≠ some i := fun n' hn' e => hl ⟨n', hn', e⟩
      rw [foldl_of_miss d _ idx upd i l _ hmiss]
      obtain ⟨n', hn', e⟩ := hex
      have hn : n' = n := by
        rcases List.mem_cons.1 hn' with h | h
        · exact h
        · exact absurd e (hmiss n' h)
      subst hn
      rw [scatStep_of_eq d idx upd x n' i e]
      exact hv n' List.mem_cons_self e

/-- Where no update index names `i`, the scatter leaves the operand's element. -/
theorem scatter_apply_of_miss (d : ScatterDims s si u) (f : α → α → α) (x : s.Idx → α) (idx : IVec si w) (upd : u.Idx → α)
    (i : s.Idx) (hmiss : ∀ j : u.Idx, d.resultIdx? j idx ≠ some i) : Host.scatter d f x idx upd i = x i := by
  rw [scatter_eq_foldl]
  exact foldl_of_miss d f idx upd i _ x (fun n _ => hmiss _)

/-- Where `j₀` is the one update index that names `i`, a scatter whose body returns the update holds the update's
    element at `j₀`. -/
theorem scatter_apply_of_hit (d : ScatterDims s si u) (x : s.Idx → α) (idx : IVec si w) (upd : u.Idx → α)
    (i : s.Idx) (j₀ : u.Idx) (hhit : d.resultIdx? j₀ idx = some i) (huniq : ∀ j : u.Idx, d.resultIdx? j idx = some i → j = j₀) :
    Host.scatter d (fun _ b => b) x idx upd i = upd j₀ := by
  rw [scatter_eq_foldl]
  refine foldl_of_hit d idx upd i (upd j₀) _ x (fun n _ e => by rw [huniq _ e]) ⟨u.rowMajor j₀, List.mem_finRange _, ?_⟩
  rw [Equiv.symm_apply_apply]; exact hhit

/-- An update index names `i` exactly when start plus window coordinate is `i`'s coordinate on every axis. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have := congrFun h' a
      have hv : (d.start j idx a + (d.window j a : Int)).toNat = (i a).val := congrArg Fin.val this
      have := hb a
      omega
    · cases h
  · intro h
    have hb : ∀ a, 0 ≤ d.start j idx a + (d.window j a : Int) ∧ d.start j idx a + (d.window j a : Int) < s.size a := by
      intro a; have := h a; have := (i a).isLt; omega
    rw [dif_pos hb]
    congr 1
    funext a
    apply Fin.ext
    show (d.start j idx a + (d.window j a : Int)).toNat = (i a).val
    have := h a; omega

end Scatter

/-! ## The four scatters of the padding, each read at an index

  Each is a `dynamic_update_slice`-shaped scatter: ONE start index (all its components the same literal word),
  the update a full window. The update index `j'` names the operand index "start plus `j'`" (on an inserted
  axis: the start alone). -/

section Dims

private theorem toInt_zero : (0#32 : BitVec 32).toInt = 0 := by decide
private theorem toInt_sixteen : (16#32 : BitVec 32).toInt = 16 := by decide

/-- The first-layer weights `[128,16]` into `[128,32]` at column 0. -/
theorem d1_iff (idx : IVec S1 32) (hidx : ∀ k, idx k = 0#32) (j' : S128x16.Idx) (i : S128x32.Idx) :
    scatter_S128x32_S1_S128x16_01_n_1_0.resultIdx? j' idx = some i ↔ (j' 0).val = (i 0).val ∧ (j' 1).val = (i 1).val := by
  have s0 : scatter_S128x32_S1_S128x16_01_n_1_0.start j' idx 0 = 0 := rfl
  have s1 : scatter_S128x32_S1_S128x16_01_n_1_0.start j' idx 1 = 0 := by
    unfold ScatterDims.start; rw [dif_pos (by decide), hidx, toInt_zero]
  have w0 : scatter_S128x32_S1_S128x16_01_n_1_0.window j' 0 = (j' 0).val := rfl
  have w1 : scatter_S128x32_S1_S128x16_01_n_1_0.window j' 1 = (j' 1).val := rfl
  rw [resultIdx?_eq_some_iff]
  constructor
  · intro h
    have h0 := h 0
    have h1 := h 1
    rw [s0, w0] at h0
    rw [s1, w1] at h1
    omega
  · rintro ⟨h0, h1⟩
    refine Fin.forall_fin_two.2 ⟨?_, ?_⟩
    · rw [s0, w0]; omega
    · rw [s1, w1]; omega

/-- The first-layer bias `[16]` into `[1,32]` at `[0,0]`. -/
theorem d2_iff (idx : IVec S2 32) (hidx : ∀ k, idx k = 0#32) (j' : S16.Idx) (i : S1x32.Idx) :
    scatter_S1x32_S2_S16_0_0_01_0.resultIdx? j' idx = some i ↔ 0 = (i 0).val ∧ (j' 0).val = (i 1).val := by
  have s0 : scatter_S1x32_S2_S16_0_0_01_0.start j' idx 0 = 0 := by
    unfold ScatterDims.start; rw [dif_pos (by decide), hidx, toInt_zero]
  have s1 : scatter_S1x32_S2_S16_0_0_01_0.start j' idx 1 = 0 := by
    unfold ScatterDims.start; rw [dif_pos (by decide), hidx, toInt_zero]
  have w0 : scatter_S1x32_S2_S16_0_0_01_0.window j' 0 = 0 := rfl
  have w1 : scatter_S1x32_S2_S16_0_0_01_0.window j' 1 = (j' 0).val := rfl
  rw [resultIdx?_eq_some_iff]
  constructor
  · intro h
    have h0 := h 0
    have h1 := h 1
    rw [s0, w0] at h0
    rw [s1, w1] at h1
    omega
  · rintro ⟨h0, h1⟩
    refine Fin.forall_fin_two.2 ⟨?_, ?_⟩
    · rw [s0, w0]; omega
    · rw [s1, w1]; omega

/-- The second-layer weights `[16,128]` into `[32,128]` at row 0. -/
theorem d3_iff (idx : IVec S1 32) (hidx : ∀ k, idx k = 0#32) (j' : S16x128.Idx) (i : S32x128.Idx) :
    scatter_S32x128_S1_S16x128_01_n_0_0.resultIdx? j' idx = some i ↔ (j' 0).val = (i 0).val ∧ (j' 1).val = (i 1).val := by
  have s0 : scatter_S32x128_S1_S16x128_01_n_0_0.start j' idx 0 = 0 := by
    unfold ScatterDims.start; rw [dif_pos (by decide), hidx, toInt_zero]
  have s1 : scatter_S32x128_S1_S16x128_01_n_0_0.start j' idx 1 = 0 := rfl
  have w0 : scatter_S32x128_S1_S16x128_01_n_0_0.window j' 0 = (j' 0).val := rfl
  have w1 : scatter_S32x128_S1_S16x128_01_n_0_0.window j' 1 = (j' 1).val := rfl
  rw [resultIdx?_eq_some_iff]
  constructor
  · intro h
    have h0 := h 0
    have h1 := h 1
    rw [s0, w0] at h0
    rw [s1, w1] at h1
    omega
  · rintro ⟨h0, h1⟩
    refine Fin.forall_fin_two.2 ⟨?_, ?_⟩
    · rw [s0, w0]; omega
    · rw [s1, w1]; omega

/-- The second-layer bias `[128]` into `[32,128]` as row 16. -/
theorem d4_iff (idx : IVec S1 32) (hidx : ∀ k, idx k = 16#32) (j' : S128.Idx) (i : S32x128.Idx) :
    scatter_S32x128_S1_S128_0_0_0_0.resultIdx? j' idx = some i ↔ 16 = (i 0).val ∧ (j' 0).val = (i 1).val := by
  have s0 : scatter_S32x128_S1_S128_0_0_0_0.start j' idx 0 = 16 := by
    unfold ScatterDims.start; rw [dif_pos (by decide), hidx, toInt_sixteen]
  have s1 : scatter_S32x128_S1_S128_0_0_0_0.start j' idx 1 = 0 := rfl
  have w0 : scatter_S32x128_S1_S128_0_0_0_0.window j' 0 = 0 := rfl
  have w1 : scatter_S32x128_S1_S128_0_0_0_0.window j' 1 = (j' 0).val := rfl
  rw [resultIdx?_eq_some_iff]
  constructor
  · intro h
    have h0 := h 0
    have h1 := h 1
    rw [s0, w0] at h0
    rw [s1, w1] at h1
    omega
  · rintro ⟨h0, h1⟩
    refine Fin.forall_fin_two.2 ⟨?_, ?_⟩
    · rw [s0, w0]; omega
    · rw [s1, w1]; omega

end Dims

section Apply

variable {α : Type}

/-- Columns below 16 hold the update, the others the operand. -/
theorem scat1_apply (x : S128x32.Idx → α) (idx : IVec S1 32) (hidx : ∀ k, idx k = 0#32) (upd : S128x16.Idx → α)
    (d : Fin 128) (j : Fin 32) :
    Host.scatter scatter_S128x32_S1_S128x16_01_n_1_0 (fun _ b => b) x idx upd (ix2 d j)
      = if hj : j.val < 16 then upd (ix2 d ⟨j.val, hj⟩) else x (ix2 d j) := by
  by_cases hj : j.val < 16
  · rw [dif_pos hj]
    refine scatter_apply_of_hit _ x idx upd _ (ix2 d ⟨j.val, hj⟩) ((d1_iff idx hidx _ _).2 ⟨rfl, rfl⟩) ?_
    intro j' h
    obtain ⟨h0, h1⟩ := (d1_iff idx hidx _ _).1 h
    rw [eq_ix2 j']
    congr 1
    · exact Fin.ext h0
    · exact Fin.ext h1
  · rw [dif_neg hj]
    refine scatter_apply_of_miss _ _ x idx upd _ ?_
    intro j' h
    obtain ⟨h0, h1⟩ := (d1_iff idx hidx _ _).1 h
    have := idx2_lt1 j'
    have e : ((ix2 d j : S128x32.Idx) 1).val = j.val := rfl
    omega

/-- Entries below 16 hold the update, the others the operand. -/
theorem scat2_apply (x : S1x32.Idx → α) (idx : IVec S2 32) (hidx : ∀ k, idx k = 0#32) (upd : S16.Idx → α) (j : Fin 32) :
    Host.scatter scatter_S1x32_S2_S16_0_0_01_0 (fun _ b => b) x idx upd (ix2 0 j)
      = if hj : j.val < 16 then upd (ix1 ⟨j.val, hj⟩) else x (ix2 0 j) := by
  by_cases hj : j.val < 16
  · rw [dif_pos hj]
    refine scatter_apply_of_hit _ x idx upd _ (ix1 ⟨j.val, hj⟩) ((d2_iff idx hidx _ _).2 ⟨rfl, rfl⟩) ?_
    intro j' h
    obtain ⟨h0, h1⟩ := (d2_iff idx hidx _ _).1 h
    rw [eq_ix1 j']
    congr 1
    exact Fin.ext h1
  · rw [dif_neg hj]
    refine scatter_apply_of_miss _ _ x idx upd _ ?_
    intro j' h
    obtain ⟨h0, h1⟩ := (d2_iff idx hidx _ _).1 h
    have : (j' 0).val < 16 := (j' 0).isLt
    have e : ((ix2 (0 : Fin 1) j : S1x32.Idx) 1).val = j.val := rfl
    omega

/-- Rows below 16 hold the update, the others the operand. -/
theorem scat3_apply (x : S32x128.Idx → α) (idx : IVec S1 32) (hidx : ∀ k, idx k = 0#32) (upd : S16x128.Idx → α)
    (j : Fin 32) (k : Fin 128) :
    Host.scatter scatter_S32x128_S1_S16x128_01_n_0_0 (fun _ b => b) x idx upd (ix2 j k)
      = if hj : j.val < 16 then upd (ix2 ⟨j.val, hj⟩ k) else x (ix2 j k) := by
  by_cases hj : j.val < 16
  · rw [dif_pos hj]
    refine scatter_apply_of_hit _ x idx upd _ (ix2 ⟨j.val, hj⟩ k) ((d3_iff idx hidx _ _).2 ⟨rfl, rfl⟩) ?_
    intro j' h
    obtain ⟨h0, h1⟩ := (d3_iff idx hidx _ _).1 h
    rw [eq_ix2 j']
    congr 1
    · exact Fin.ext h0
    · exact Fin.ext h1
  · rw [dif_neg hj]
    refine scatter_apply_of_miss _ _ x idx upd _ ?_
    intro j' h
    obtain ⟨h0, h1⟩ := (d3_iff idx hidx _ _).1 h
    have := idx2_lt0 j'
    have e : ((ix2 j k : S32x128.Idx) 0).val = j.val := rfl
    omega

/-- Row 16 holds the update, the others the operand. -/
theorem scat4_apply (x : S32x128.Idx → α) (idx : IVec S1 32) (hidx : ∀ k, idx k = 16#32) (upd : S128.Idx → α)
    (j : Fin 32) (k : Fin 128) :
    Host.scatter scatter_S32x128_S1_S128_0_0_0_0 (fun _ b => b) x idx upd (ix2 j k)
      = if j.val = 16 then upd (ix1 k) else x (ix2 j k) := by
  by_cases hj : j.val = 16
  · rw [if_pos hj]
    refine scatter_apply_of_hit _ x idx upd _ (ix1 k) ((d4_iff idx hidx _ _).2 ⟨hj.symm, rfl⟩) ?_
    intro j' h
    obtain ⟨h0, h1⟩ := (d4_iff idx hidx _ _).1 h
    rw [eq_ix1 j']
    congr 1
    exact Fin.ext h1
  · rw [if_neg hj]
    refine scatter_apply_of_miss _ _ x idx upd _ ?_
    intro j' h
    obtain ⟨h0, h1⟩ := (d4_iff idx hidx _ _).1 h
    have e : ((ix2 j k : S32x128.Idx) 0).val = j.val := rfl
    omega

end Apply

/-! ## The padded arrays as the region finds them -/

section Arrays

variable (m : (ℓ : Loc nD τ sig) → Buf (Elt Ideal) ℓ) (c : Dev nD)

/-- The first-layer weights as padded: the launch's `[128,16]` array written over zeros `[128,32]` from column 0. -/
theorem V_v2_eq :
    (Gen.V m c main_call0_v2 : S128x32.Idx → EReal) =
      Host.scatter scatter_S128x32_S1_S128x16_01_n_1_0 (fun _ b => b)
        (broadcastInDim S128x32 ![] Facts₀.bcast_S_S128x32 (constant (F := Ideal) S_ .f32 0x00000000#32))
        (broadcastInDim S1 ![] Facts₀.bcast_S_S1 (constantI S_ 32 0#32))
        (m ((c : Thread nD τ).loc main_arg2)) := by
  dsimp only [Gen.V, Gen.hostOps0]; after_results
  simp only [cast_eq]

/-- The first-layer bias as padded: the launch's `[16]` array written over zeros `[1,32]` from `[0,0]`. -/
theorem V_v7_eq :
    (Gen.V m c main_call0_v7 : S1x32.Idx → EReal) =
      Host.scatter scatter_S1x32_S2_S16_0_0_01_0 (fun _ b => b)
        (broadcastInDim S1x32 ![] Facts₀.bcast_S_S1x32 (constant (F := Ideal) S_ .f32 0x00000000#32))
        (concatenate S2 0 [⟨S1, broadcastInDim S1 ![] Facts₀.bcast_S_S1 (constantI S_ 32 0#32)⟩,
          ⟨S1, broadcastInDim S1 ![] Facts₀.bcast_S_S1 (constantI S_ 32 0#32)⟩] Facts₀.concatenates_S1_S1_S2_d0)
        (m ((c : Thread nD τ).loc main_arg3)) := by
  dsimp only [Gen.V, Gen.hostOps0]; after_results
  simp only [cast_eq]

/-- The second-layer weights as padded: the launch's `[16,128]` array written over zeros `[32,128]` from row 0, then
    the launch's `[128]` bias written as row 16. -/
theorem V_v12_eq :
    (Gen.V m c main_call0_v12 : S32x128.Idx → EReal) =
      Host.scatter scatter_S32x128_S1_S128_0_0_0_0 (fun _ b => b)
        (Host.scatter scatter_S32x128_S1_S16x128_01_n_0_0 (fun _ b => b)
          (broadcastInDim S32x128 ![] Facts₀.bcast_S_S32x128 (constant (F := Ideal) S_ .f32 0x00000000#32))
          (broadcastInDim S1 ![] Facts₀.bcast_S_S1 (constantI S_ 32 0#32))
          (m ((c : Thread nD τ).loc main_arg4)))
        (broadcastInDim S1 ![] Facts₀.bcast_S_S1 (constantI S_ 32 16#32))
        (m ((c : Thread nD τ).loc main_arg5)) := by
  dsimp only [Gen.V, Gen.hostOps0]; after_results
  simp only [cast_eq]

/-- The two start words of the bias scatter, concatenated: both zero. -/
private theorem concat_zero (k : S2.Idx) :
    concatenate S2 0 [⟨S1, broadcastInDim S1 ![] Facts₀.bcast_S_S1 (constantI S_ 32 0#32)⟩,
      ⟨S1, broadcastInDim S1 ![] Facts₀.bcast_S_S1 (constantI S_ 32 0#32)⟩] Facts₀.concatenates_S1_S1_S2_d0 k = 0#32 := by
  obtain ⟨k0, rfl⟩ : ∃ k0 : Fin 2, k = ix1 k0 := ⟨k 0, eq_ix1 k⟩
  fin_cases k0 <;> rfl

/-- The start word of the scatters at offset zero, broadcast to one index vector. -/
private theorem start_zero (k : S1.Idx) : broadcastInDim S1 ![] Facts₀.bcast_S_S1 (constantI S_ 32 0#32) k = 0#32 := rfl
/-- The start word of the bias row, broadcast to one index vector. -/
private theorem start_sixteen (k : S1.Idx) : broadcastInDim S1 ![] Facts₀.bcast_S_S1 (constantI S_ 32 16#32) k = 16#32 := rfl

/-- The padded first-layer weights at an index. -/
theorem V_w0p (d : Fin 128) (j : Fin 32) :
    (Gen.V m c main_call0_v2 : S128x32.Idx → EReal) (ix2 d j)
      = Cert.Spec.w0p (fun i j => (m ((c : Thread nD τ).loc main_arg2) : S128x16.Idx → EReal) (ix2 i j)) d j := by
  refine (congrFun (V_v2_eq m c) (ix2 d j)).trans ?_
  rw [scat1_apply _ _ start_zero]
  unfold Cert.Spec.w0p
  by_cases hj : j.val < 16
  · rw [dif_pos hj, dif_pos hj]
  · rw [dif_neg hj, dif_neg hj]; exact Ideal.ofBits_zero_f32

/-- The padded first-layer bias at an index. -/
theorem V_b0p (j : Fin 32) :
    (Gen.V m c main_call0_v7 : S1x32.Idx → EReal) (ix2 0 j)
      = Cert.Spec.b0p (fun j => (m ((c : Thread nD τ).loc main_arg3) : S16.Idx → EReal) (ix1 j)) j := by
  refine (congrFun (V_v7_eq m c) (ix2 0 j)).trans ?_
  rw [scat2_apply _ _ concat_zero]
  unfold Cert.Spec.b0p
  by_cases hj : j.val < 16
  · rw [dif_pos hj, dif_pos hj]
  · rw [dif_neg hj, dif_neg hj]; exact Ideal.ofBits_zero_f32

/-- The padded second-layer weights at an index. -/
theorem V_w1p (j : Fin 32) (k : Fin 128) :
    (Gen.V m c main_call0_v12 : S32x128.Idx → EReal) (ix2 j k)
      = Cert.Spec.w1p (fun i j => (m ((c : Thread nD τ).loc main_arg4) : S16x128.Idx → EReal) (ix2 i j))
          (fun j => (m ((c : Thread nD τ).loc main_arg5) : S128.Idx → EReal) (ix1 j)) j k := by
  refine (congrFun (V_v12_eq m c) (ix2 j k)).trans ?_
  rw [scat4_apply _ _ start_sixteen, scat3_apply _ _ start_zero]
  unfold Cert.Spec.w1p
  by_cases hj : j.val < 16
  · have h16 : ¬ j.val = 16 := by omega
    rw [if_neg h16, dif_pos hj, dif_pos hj]
  · rw [dif_neg hj, dif_neg hj]
    by_cases h16 : j.val = 16
    · rw [if_pos h16, if_pos h16]
    · rw [if_neg h16, if_neg h16]; exact Ideal.ofBits_zero_f32

end Arrays

end Cert.KernelIdeal.HostPad

end
-- ==== Proof.KernelValue.lean ====
/-
  The value of the idealized kernel: after the run the result array is `Spec.outK` of the argument arrays.

  * Each input window's block, read at an index: the row block of `a` at point `t` is rows
    `400 · (t % 25) …` of `a`; the other windows hold their whole arrays — `h`, and the three padded arrays the host
    builds before the region (`Spec.w0p`, `Spec.b0p`, `Spec.w1p` of the arguments).
  * The first scratch `Tval` is `Spec.hidK`, the second `Yfull` is `Spec.actK` (row `r` was stored by point `r / 400`
    from row `r % 400` of that point's block of `a`, which is row `r` of `a`), and the block a point of phase 1
    stores is the rows of `Spec.outK` its row block of `a` names.
  * The output's blocks are written back exactly at the points of phase 1, point `25 + q` writing rows
    `[400 q, 400 q + 400)`: together they cover the array.
-/
import proofs.«176305_g24318104830749_cont_sun_m_1374_5_alg».proof.Proof.Body
import proofs.«176305_g24318104830749_cont_sun_m_1374_5_alg».proof.Proof.Payload
import proofs.«176305_g24318104830749_cont_sun_m_1374_5_alg».proof.Proof.HostPad
import proofs.«176305_g24318104830749_cont_sun_m_1374_5_alg».proof.Proof.Spec
import Idealize.ShloMosaic.Lib.ValueIdx
import Idealize.ShloMosaic.Lib.ValueIdxCoords
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-! ## The argument arrays as functions of their coordinates -/

def aA (c : Dev nD) : Fin 10000 → Fin 10000 → EReal := fun i j => (m ((c : Thread nD τ).loc main_arg0) : S10000x10000.Idx → EReal) (ix2 i j)
def hA (c : Dev nD) : Fin 10000 → Fin 128 → EReal := fun i j => (m ((c : Thread nD τ).loc main_arg1) : S10000x128.Idx → EReal) (ix2 i j)
def w0A (c : Dev nD) : Fin 128 → Fin 16 → EReal := fun i j => (m ((c : Thread nD τ).loc main_arg2) : S128x16.Idx → EReal) (ix2 i j)
def b0A (c : Dev nD) : Fin 16 → EReal := fun j => (m ((c : Thread nD τ).loc main_arg3) : S16.Idx → EReal) (ix1 j)
def w1A (c : Dev nD) : Fin 16 → Fin 128 → EReal := fun i j => (m ((c : Thread nD τ).loc main_arg4) : S16x128.Idx → EReal) (ix2 i j)
def b1A (c : Dev nD) : Fin 128 → EReal := fun j => (m ((c : Thread nD τ).loc main_arg5) : S128.Idx → EReal) (ix1 j)

/-! ## The printed index maps, decided over the grid -/

theorem idx0 : ∀ t : Fin cfg0.N, win0_0.index t (0 : Fin 2) = t.val % 25 ∧ win0_0.index t (1 : Fin 2) = 0 :=
  (by decide +kernel : ∀ t : Fin grid0.N, win0_0.index t (0 : Fin 2) = t.val % 25 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- In phase 1 the output's block index is the row block. -/
theorem idx5 : ∀ t : Fin cfg0.N, 25 ≤ t.val → win0_5.index t (0 : Fin 2) = t.val - 25 ∧ win0_5.index t (1 : Fin 2) = 0 :=
  (by decide +kernel : ∀ t : Fin grid0.N, 25 ≤ t.val → win0_5.index t (0 : Fin 2) = t.val - 25 ∧ win0_5.index t (1 : Fin 2) = 0)
/-- The output's block is written back exactly at the points of phase 1. -/
theorem flush5 : ∀ t : Fin cfg0.N, (cfg0.win 5).flush t = true ↔ 25 ≤ t.val :=
  (by decide +kernel : ∀ t : Fin grid0.N, win0_5.flush t = true ↔ 25 ≤ t.val)

/-! ## The input blocks at an index -/

theorem iblk0_apply (c : Dev nD) (t : Fin cfg0.N) (p : Fin 400) (k : Fin 10000) (hr : 400 * (t.val % 25) + p.val < 10000) :
    (iblk m c 0 t : Vec Ideal S400x10000 .f32) (ix2 p k) = aA m c ⟨400 * (t.val % 25) + p.val, hr⟩ k := by
  unfold iblk
  rw [View.read_apply]
  show V m c main_arg0 _ = _
  rw [V_main_arg0]
  unfold aA
  congr 1
  funext a
  apply Fin.ext
  match a with
  | ⟨0, _⟩ => show win0_0.index t 0 * 400 + 1 * p.val = 400 * (t.val % 25) + p.val; rw [(idx0 t).1]; omega
  | ⟨1, _⟩ => show win0_0.index t 1 * 10000 + 1 * k.val = k.val; rw [(idx0 t).2]; omega

theorem iblk1_apply (c : Dev nD) (t : Fin cfg0.N) (k : Fin 10000) (d : Fin 128) :
    (iblk m c 1 t : Vec Ideal S10000x128 .f32) (ix2 k d) = hA m c k d := by
  unfold iblk
  rw [View.read_apply]
  show V m c main_arg1 _ = _
  rw [V_main_arg1]
  unfold hA
  congr 1
  funext a
  apply Fin.ext
  match a with
  | ⟨0, _⟩ => show win0_1.index t 0 * 10000 + 1 * k.val = k.val; rw [(idx1 t).1]; omega
  | ⟨1, _⟩ => show win0_1.index t 1 * 128 + 1 * d.val = d.val; rw [(idx1 t).2]; omega

theorem iblk2_apply (c : Dev nD) (t : Fin cfg0.N) (d : Fin 128) (j : Fin 32) :
    (iblk m c 2 t : Vec Ideal S128x32 .f32) (ix2 d j) = Cert.Spec.w0p (w0A m c) d j := by
  refine Eq.trans ?_ (Cert.KernelIdeal.HostPad.V_w0p m c d j)
  unfold iblk
  rw [View.read_apply]
  show V m c main_call0_v2 _ = V m c main_call0_v2 _
  congr 1
  funext a
  apply Fin.ext
  match a with
  | ⟨0, _⟩ => show win0_2.index t 0 * 128 + 1 * d.val = d.val; rw [(idx2 t).1]; omega
  | ⟨1, _⟩ => show win0_2.index t 1 * 32 + 1 * j.val = j.val; rw [(idx2 t).2]; omega

theorem iblk3_apply (c : Dev nD) (t : Fin cfg0.N) (j : Fin 32) :
    (iblk m c 3 t : Vec Ideal S1x32 .f32) (ix2 0 j) = Cert.Spec.b0p (b0A m c) j := by
  refine Eq.trans ?_ (Cert.KernelIdeal.HostPad.V_b0p m c j)
  unfold iblk
  rw [View.read_apply]
  show V m c main_call0_v7 _ = V m c main_call0_v7 _
  congr 1
  funext a
  apply Fin.ext
  match a with
  | ⟨0, _⟩ => show win0_3.index t 0 * 1 + 1 * 0 = 0; rw [(idx3 t).1]
  | ⟨1, _⟩ => show win0_3.index t 1 * 32 + 1 * j.val = j.val; rw [(idx3 t).2]; omega

theorem iblk4_apply (c : Dev nD) (t : Fin cfg0.N) (j : Fin 32) (q : Fin 128) :
    (iblk m c 4 t : Vec Ideal S32x128 .f32) (ix2 j q) = Cert.Spec.w1p (w1A m c) (b1A m c) j q := by
  refine Eq.trans ?_ (Cert.KernelIdeal.HostPad.V_w1p m c j q)
  unfold iblk
  rw [View.read_apply]
  show V m c main_call0_v12 _ = V m c main_call0_v12 _
  congr 1
  funext a
  apply Fin.ext
  match a with
  | ⟨0, _⟩ => show win0_4.index t 0 * 32 + 1 * j.val = j.val; rw [(idx4 t).1]; omega
  | ⟨1, _⟩ => show win0_4.index t 1 * 128 + 1 * q.val = q.val; rw [(idx4 t).2]; omega

/-! ## The payloads over named blocks -/

/-- The hidden-layer payload of blocks that are `H`, the padded `W` and the padded `B`. -/
theorem hid_of (x1 : Vec Ideal S10000x128 .f32) (x2 : Vec Ideal S128x32 .f32) (x3 : Vec Ideal S1x32 .f32)
    (H : Fin 10000 → Fin 128 → EReal) (W : Fin 128 → Fin 16 → EReal) (B : Fin 16 → EReal)
    (h1 : ∀ k d, x1 (ix2 k d) = H k d) (h2 : ∀ d j, x2 (ix2 d j) = Cert.Spec.w0p W d j) (h3 : ∀ j, x3 (ix2 0 j) = Cert.Spec.b0p B j)
    (k : Fin 10000) (j : Fin 32) : k0_pay1 (F := Ideal) x1 x2 x3 (ix2 k j) = Cert.Spec.hidK H W B k j := by
  rw [Cert.KernelIdeal.PayValue.pay1_apply]
  unfold Cert.Spec.hidK
  simp only [h1, h2, h3]

/-- The activation payload of a row block of `A` starting at row `r0` and a first scratch that is `Hd`. -/
theorem act_of (x0 : Vec Ideal S400x10000 .f32) (T : Vec Ideal S10000x32 .f32)
    (A : Fin 10000 → Fin 10000 → EReal) (Hd : Fin 10000 → Fin 32 → EReal) (r : Fin 10000) (p : Fin 400)
    (h0 : ∀ k, x0 (ix2 p k) = A r k) (hT : ∀ k j, T (ix2 k j) = Hd k j) (j : Fin 32) :
    k0_pay2 (F := Ideal) x0 T (ix2 p j) = if j.val = 16 then (1 : EReal) else max (∑ k' : Fin 10000, A r k' * Hd k' j) 0 := by
  rw [Cert.KernelIdeal.PayValue.pay2_apply]
  simp only [h0, hT]

/-- The output payload of a row of `A`, a second scratch that is `Ac` and the padded second-layer weights `Wp`. -/
theorem out_of (x0 : Vec Ideal S400x10000 .f32) (Y : Vec Ideal S10000x32 .f32) (x4 : Vec Ideal S32x128 .f32)
    (A : Fin 10000 → Fin 10000 → EReal) (Ac : Fin 10000 → Fin 32 → EReal) (Wp : Fin 32 → Fin 128 → EReal) (r : Fin 10000) (p : Fin 400)
    (h0 : ∀ k, x0 (ix2 p k) = A r k) (hY : ∀ k j, Y (ix2 k j) = Ac k j) (h4 : ∀ j q, x4 (ix2 j q) = Wp j q) (q : Fin 128) :
    k0_pay3 (F := Ideal) x0 Y x4 (ix2 p q) = ∑ j : Fin 32, (∑ k : Fin 10000, A r k * Ac k j) * Wp j q := by
  rw [Cert.KernelIdeal.PayValue.pay3_apply]
  simp only [h0, hY, h4]

/-! ## The scratch buffers and the output block as the specification's functions -/

theorem Tval_apply (c : Dev nD) (k : Fin 10000) (j : Fin 32) :
    Tval m c (ix2 k j) = Cert.Spec.hidK (hA m c) (w0A m c) (b0A m c) k j :=
  hid_of _ _ _ (hA m c) (w0A m c) (b0A m c) (iblk1_apply m c t00) (iblk2_apply m c t00) (iblk3_apply m c t00) k j

theorem Yfull_apply (c : Dev nD) (k : Fin 10000) (j : Fin 32) :
    Yfull m c (ix2 k j) = Cert.Spec.actK (aA m c) (hA m c) (w0A m c) (b0A m c) k j := by
  have hk : k.val < 10000 := k.isLt
  show k0_pay2 (F := Ideal) (iblk m c 0 (ptOf k.val k.isLt)) (Tval m c) (ix2 (⟨k.val % 400, Nat.mod_lt _ (by decide)⟩ : Fin 400) j) = _
  refine (act_of _ _ (aA m c) (Cert.Spec.hidK (hA m c) (w0A m c) (b0A m c)) k ⟨k.val % 400, Nat.mod_lt _ (by decide)⟩ (fun k' => ?_) (Tval_apply m c) j).trans rfl
  have hr : 400 * ((ptOf k.val k.isLt).val % 25) + k.val % 400 < 10000 := by
    show 400 * ((k.val / 400) % 25) + k.val % 400 < 10000
    omega
  refine (iblk0_apply m c (ptOf k.val k.isLt) ⟨k.val % 400, Nat.mod_lt _ (by decide)⟩ k' hr).trans ?_
  congr 1
  apply Fin.ext
  show 400 * ((k.val / 400) % 25) + k.val % 400 = k.val
  omega

/-- The block point `t` leaves in the output's staging buffer: the rows of `Spec.outK` that its row block names. -/
theorem out5_apply (c : Dev nD) (t : Fin cfg0.N) (y : S400x128.Idx) (hr : 400 * (t.val % 25) + (y (0 : Fin 2)).val < 10000) :
    out5 m c t y = Cert.Spec.outK (aA m c) (hA m c) (w0A m c) (b0A m c) (w1A m c) (b1A m c)
      ⟨400 * (t.val % 25) + (y (0 : Fin 2)).val, hr⟩ ⟨(y (1 : Fin 2)).val, (y (1 : Fin 2)).isLt⟩ := by
  obtain ⟨p, q, rfl⟩ : ∃ (p : Fin 400) (q : Fin 128), y = ix2 p q := ⟨y 0, y 1, eq_ix2 y⟩
  unfold out5
  exact out_of _ _ _ (aA m c) (Cert.Spec.actK (aA m c) (hA m c) (w0A m c) (b0A m c)) (Cert.Spec.w1p (w1A m c) (b1A m c))
    ⟨400 * (t.val % 25) + p.val, hr⟩ p (fun k => iblk0_apply m c t p k hr) (Yfull_apply m c) (iblk4_apply m c t) q

/-! ## From the blocks to the array -/

/-- The result array: `Spec.outK` of the argument arrays. -/
def GK (c : Dev nD) : S10000x128.Idx → EReal := fun i =>
  Cert.Spec.outK (aA m c) (hA m c) (w0A m c) (b0A m c) (w1A m c) (b1A m c) ⟨(i (0 : Fin 2)).val, (i (0 : Fin 2)).isLt⟩ ⟨(i (1 : Fin 2)).val, (i (1 : Fin 2)).isLt⟩

/-- What a point of phase 1 writes back is its block of `GK`. -/
theorem flushed_eq (c : Dev nD) (t : Fin cfg0.N) (hf : (cfg0.win 5).flush t = true) :
    (dats m 0 c).flushed 5 t = ((cfg0.win 5).blk t).view.read (Elt Ideal) (GK m c) := by
  have h2 : 25 ≤ t.val := (flush5 t).mp hf
  have hN : t.val < 50 := lt_of_lt_of_eq t.isLt N50
  show (cfg0.win 5).cut (grid0.coords t) ((dats m 0 c).after 5 t) = _
  rw [after0_5]
  funext j
  have hj0 : (j (0 : Fin 2)).val < 400 := (j (0 : Fin 2)).isLt
  show out5 m c t j = GK m c (((cfg0.win 5).blk t).view.emb j)
  rw [out5_apply m c t j (by omega)]
  unfold GK
  congr 1
  · apply Fin.ext
    show 400 * (t.val % 25) + (j (0 : Fin 2)).val = win0_5.index t 0 * 400 + 1 * (j (0 : Fin 2)).val
    rw [(idx5 t h2).1]; omega
  · apply Fin.ext
    show (j (1 : Fin 2)).val = win0_5.index t 1 * 128 + 1 * (j (1 : Fin 2)).val
    rw [(idx5 t h2).2]; omega

/-- Every index of the result array lies in the block some point of phase 1 writes back. -/
theorem cover (c : Dev nD) (i : S10000x128.Idx) :
    ∃ t : Fin cfg0.N, (cfg0.win 5).flush t = true ∧ i ∈ ((cfg0.win 5).blk t).view.set := by
  have hi0 : (i (0 : Fin 2)).val < 10000 := (i (0 : Fin 2)).isLt
  have hi1 : (i (1 : Fin 2)).val < 128 := (i (1 : Fin 2)).isLt
  have hlt : 25 + (i (0 : Fin 2)).val / 400 < cfg0.N := by rw [N50]; omega
  obtain ⟨t, ht⟩ : ∃ t : Fin cfg0.N, t.val = 25 + (i (0 : Fin 2)).val / 400 := ⟨⟨_, hlt⟩, rfl⟩
  have h2 : 25 ≤ t.val := by omega
  refine ⟨t, (flush5 t).mpr h2, ?_⟩
  show i ∈ ((View.whole main_v0).slice (win0_5.rect t)).set
  rw [View.set_slice_whole, Rect.mem_set_unit]
  intro a
  obtain ⟨e0, e1⟩ := idx5 t h2
  match a with
  | ⟨0, _⟩ =>
    show win0_5.index t 0 * 400 ≤ (i (0 : Fin 2)).val ∧ (i (0 : Fin 2)).val < win0_5.index t 0 * 400 + 400
    rw [e0]
    omega
  | ⟨1, _⟩ =>
    show win0_5.index t 1 * 128 ≤ (i (1 : Fin 2)).val ∧ (i (1 : Fin 2)).val < win0_5.index t 1 * 128 + 128
    rw [e1]
    omega

/-- The result array after the run. -/
theorem final (c : Dev nD) : (dats m 0 c).arrAt 5 cfg0.N = GK m c :=
  (dats m 0 c).arrAt_eq_of_cover 5 (GK m c) (flushed_eq m c) (cover c)

/-- The run, read: the result array at `GK`, the arguments unchanged. -/
theorem run : θ_run defs (onTc (τ := τ) (main (F := Ideal))) ⟨m, fun _ => 0, ρ⟩ fun r => ∀ c : Dev nD,
      r.2.mem ((c.tc : Thread nD τ).loc main_v0) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main (F := Ideal) m ρ)

end Cert.KernelIdeal.Hand

end
-- ==== Proof.RefValue.lean ====
/-
  The reference's last stage, read at an entry, is the two-layer graph convolution
  `a · (relu(a · (h · W0 + b0)) · W1 + b1)` of the six argument arrays: one lemma per stage (the hidden
  pre-activation, the activation, the second layer before aggregation, the result). Each product stage is the sum
  over its contracted axis of a row against a column; each bias is one vector read at every row; the
  `relu`'s zero is the word of the number zero.
-/
import proofs.«176305_g24318104830749_cont_sun_m_1374_5_alg».proof.Proof.Gen.ReferenceIdeal.Read
import proofs.«176305_g24318104830749_cont_sun_m_1374_5_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-! ### The stages' operand indices at an entry given by its coordinates -/

theorem lidx_v0 (k : Fin 10000) (j : Fin 16) (d : Fin 128) : lidx_main_v0 (ix2 k j) d = ix2 k d :=
  funext fun a => Fin.ext (by match a with | ⟨0, _⟩ => rfl | ⟨1, _⟩ => rfl)
theorem ridx_v0 (k : Fin 10000) (j : Fin 16) (d : Fin 128) : ridx_main_v0 (ix2 k j) d = ix2 d j :=
  funext fun a => Fin.ext (by match a with | ⟨0, _⟩ => rfl | ⟨1, _⟩ => rfl)
theorem idx_v2_v1 (k : Fin 10000) (j : Fin 16) : idx_main_v1 (idx_main_v2 (ix2 k j)) = ix1 j :=
  funext fun a => Fin.ext (by match a with | ⟨0, _⟩ => rfl)
theorem lidx_v4 (k : Fin 10000) (j : Fin 16) (k' : Fin 10000) : lidx_main_v4 (ix2 k j) k' = ix2 k k' :=
  funext fun a => Fin.ext (by match a with | ⟨0, _⟩ => rfl | ⟨1, _⟩ => rfl)
theorem ridx_v4 (k : Fin 10000) (j : Fin 16) (k' : Fin 10000) : ridx_main_v4 (ix2 k j) k' = ix2 k' j :=
  funext fun a => Fin.ext (by match a with | ⟨0, _⟩ => rfl | ⟨1, _⟩ => rfl)
theorem lidx_v6 (k : Fin 10000) (c : Fin 128) (j : Fin 16) : lidx_main_v6 (ix2 k c) j = ix2 k j :=
  funext fun a => Fin.ext (by match a with | ⟨0, _⟩ => rfl | ⟨1, _⟩ => rfl)
theorem ridx_v6 (k : Fin 10000) (c : Fin 128) (j : Fin 16) : ridx_main_v6 (ix2 k c) j = ix2 j c :=
  funext fun a => Fin.ext (by match a with | ⟨0, _⟩ => rfl | ⟨1, _⟩ => rfl)
theorem idx_v8_v7 (k : Fin 10000) (c : Fin 128) : idx_main_v7 (idx_main_v8 (ix2 k c)) = ix1 c :=
  funext fun a => Fin.ext (by match a with | ⟨0, _⟩ => rfl)
theorem lidx_v10 (r : Fin 10000) (c : Fin 128) (k : Fin 10000) : lidx_main_v10 (ix2 r c) k = ix2 r k :=
  funext fun a => Fin.ext (by match a with | ⟨0, _⟩ => rfl | ⟨1, _⟩ => rfl)
theorem ridx_v10 (r : Fin 10000) (c : Fin 128) (k : Fin 10000) : ridx_main_v10 (ix2 r c) k = ix2 k c :=
  funext fun a => Fin.ext (by match a with | ⟨0, _⟩ => rfl | ⟨1, _⟩ => rfl)

variable (x0 : (⟨S10000x10000, .f32⟩ : BufTy).Contents (Elt Ideal)) (x1 : (⟨S10000x128, .f32⟩ : BufTy).Contents (Elt Ideal))
  (x2 : (⟨S128x16, .f32⟩ : BufTy).Contents (Elt Ideal)) (x3 : (⟨S16, .f32⟩ : BufTy).Contents (Elt Ideal))
  (x4 : (⟨S16x128, .f32⟩ : BufTy).Contents (Elt Ideal)) (x5 : (⟨S128, .f32⟩ : BufTy).Contents (Elt Ideal))

/-! ### The stages -/

/-- The hidden pre-activation `h · W0 + b0` at an entry. -/
theorem hid_apply (k : Fin 10000) (j : Fin 16) :
    val_main_v3 (F := Ideal) x1 x2 x3 (ix2 k j)
      = Cert.Spec.hidR (fun i j => x1 (ix2 i j)) (fun i j => x2 (ix2 i j)) (fun j => x3 (ix1 j)) k j := by
  rw [val_main_v3_apply, val_main_v0_apply, val_main_v2_apply, val_main_v1_apply, idx_v2_v1]
  unfold Cert.Spec.hidR
  refine congrArg₂ (· + ·) (Finset.sum_congr rfl fun d _ => ?_) rfl
  rw [lidx_v0, ridx_v0]

/-- The activation `max (a · hid) 0` at an entry. -/
theorem act_apply (k : Fin 10000) (j : Fin 16) :
    val_main_v5 (F := Ideal) x0 x1 x2 x3 (ix2 k j)
      = Cert.Spec.actR (fun i j => x0 (ix2 i j)) (fun i j => x1 (ix2 i j)) (fun i j => x2 (ix2 i j))
          (fun j => x3 (ix1 j)) k j := by
  rw [val_main_v5_apply, val_main_v4_apply, val_main_call0_v0_apply, val_main_call0_cst_apply]
  unfold Cert.Spec.actR
  refine congrArg₂ max (Finset.sum_congr rfl fun k' _ => ?_) Ideal.ofBits_zero_f32
  rw [lidx_v4, ridx_v4, hid_apply]

/-- The second layer before aggregation, `act · W1 + b1`, at an entry. -/
theorem lin_apply (k : Fin 10000) (c : Fin 128) :
    val_main_v9 (F := Ideal) x0 x1 x2 x3 x4 x5 (ix2 k c)
      = Cert.Spec.linR (fun i j => x0 (ix2 i j)) (fun i j => x1 (ix2 i j)) (fun i j => x2 (ix2 i j))
          (fun j => x3 (ix1 j)) (fun i j => x4 (ix2 i j)) (fun j => x5 (ix1 j)) k c := by
  rw [val_main_v9_apply, val_main_v6_apply, val_main_v8_apply, val_main_v7_apply, idx_v8_v7]
  unfold Cert.Spec.linR
  refine congrArg₂ (· + ·) (Finset.sum_congr rfl fun j _ => ?_) rfl
  rw [lidx_v6, ridx_v6, act_apply]

/-- The reference's result `a · (act · W1 + b1)` at an entry. -/
theorem ref_apply (r : Fin 10000) (c : Fin 128) :
    val_main_v10 (F := Ideal) x0 x1 x2 x3 x4 x5 (ix2 r c)
      = Cert.Spec.outR (fun i j => x0 (ix2 i j)) (fun i j => x1 (ix2 i j)) (fun i j => x2 (ix2 i j))
          (fun j => x3 (ix1 j)) (fun i j => x4 (ix2 i j)) (fun j => x5 (ix1 j)) r c := by
  rw [val_main_v10_apply]
  unfold Cert.Spec.outR
  refine Finset.sum_congr rfl fun k _ => ?_
  rw [lidx_v10, ridx_v10, lin_apply]

end Cert.ReferenceIdeal.RefValue

end
-- ==== Proof.SpecLaw.lean ====
/-
  The padded and the plain two-layer graph convolution agree on real-valued data.

  Nothing about the padding needs real numbers: over the extended reals a padded column `j > 16` has zero
  second-layer weight, column `16` carries the constant one against the bias row, and a column `j < 16` is the
  plain column.  So the padded result is
    `∑ j < 16, (∑ k, a r k * act k j) * W1 j c + (∑ k, a r k * 1) * b1 c`.
  Turning this into `∑ k, a r k * (∑ j, act k j * W1 j c + b1 c)` is distributivity of finite sums, which holds
  for real numbers (not for arbitrary extended reals), hence the hypotheses that every entry is real.
-/
import proofs.«176305_g24318104830749_cont_sun_m_1374_5_alg».proof.Proof.Spec
import Mathlib.Algebra.BigOperators.Fin
import Mathlib.Algebra.BigOperators.Ring.Finset
import Mathlib.Tactic.Ring

namespace Cert.Spec

open scoped BigOperators

/-! ### Extended reals that are real numbers -/

/-- The extended real `x` is (the image of) a real number. -/
def IsReal (x : EReal) : Prop := ∃ y : ℝ, x = (y : EReal)

theorem isReal_zero : IsReal 0 := ⟨0, rfl⟩

theorem isReal_one : IsReal 1 := ⟨1, rfl⟩

theorem IsReal.add {x y : EReal} (hx : IsReal x) (hy : IsReal y) : IsReal (x + y) := by
  obtain ⟨u, rfl⟩ := hx
  obtain ⟨v, rfl⟩ := hy
  exact ⟨u + v, (EReal.coe_add u v).symm⟩

theorem IsReal.mul {x y : EReal} (hx : IsReal x) (hy : IsReal y) : IsReal (x * y) := by
  obtain ⟨u, rfl⟩ := hx
  obtain ⟨v, rfl⟩ := hy
  exact ⟨u * v, (EReal.coe_mul u v).symm⟩

theorem IsReal.max {x y : EReal} (hx : IsReal x) (hy : IsReal y) : IsReal (max x y) := by
  obtain ⟨u, rfl⟩ := hx
  obtain ⟨v, rfl⟩ := hy
  rcases le_total u v with huv | huv
  · exact ⟨v, max_eq_right (EReal.coe_le_coe_iff.2 huv)⟩
  · exact ⟨u, max_eq_left (EReal.coe_le_coe_iff.2 huv)⟩

theorem IsReal.sum {ι : Type*} (s : Finset ι) (f : ι → EReal) (hf : ∀ i ∈ s, IsReal (f i)) :
    IsReal (∑ i ∈ s, f i) := by
  classical
  revert hf
  refine Finset.induction_on s ?_ ?_
  · intro _
    rw [Finset.sum_empty]
    exact isReal_zero
  · intro i s hi ih hf
    rw [Finset.sum_insert hi]
    exact (hf i (Finset.mem_insert_self i s)).add (ih fun j hj => hf j (Finset.mem_insert_of_mem hj))

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro i s hi ih
    rw [Finset.sum_insert hi, Finset.sum_insert hi, EReal.coe_add, ih]

/-! ### Distributivity, for real data -/

/-- `∑ i, (∑ k, α k * act k i) * w i + (∑ k, α k * 1) * b = ∑ k, α k * (∑ j, act k j * w j + b)` for reals,
read in the extended reals. -/
theorem distrib_law {N J : Type*} [Fintype N] [Fintype J] (α : N → ℝ) (act : N → J → ℝ) (w : J → ℝ) (b : ℝ) :
    (∑ i : J, (∑ k : N, (α k : EReal) * (act k i : EReal)) * (w i : EReal))
        + (∑ k : N, (α k : EReal) * 1) * (b : EReal)
      = ∑ k : N, (α k : EReal) * ((∑ j : J, (act k j : EReal) * (w j : EReal)) + (b : EReal)) := by
  have hreal : (∑ i : J, (∑ k : N, α k * act k i) * w i) + (∑ k : N, α k * 1) * b
      = ∑ k : N, α k * ((∑ j : J, act k j * w j) + b) := by
    simp only [Finset.sum_mul, Finset.mul_sum, mul_add, Finset.sum_add_distrib, mul_one]
    rw [Finset.sum_comm]
    congr 1
    refine Finset.sum_congr rfl fun k _ => Finset.sum_congr rfl fun j _ => ?_
    ring
  have := congrArg (fun x : ℝ => (x : EReal)) hreal
  simpa only [EReal.coe_add, EReal.coe_mul, coe_sum, EReal.coe_one] using this

/-! ### The padding, over the extended reals -/

section Padding

variable (a : Fin 10000 → Fin 10000 → EReal) (h : Fin 10000 → Fin 128 → EReal)
  (W0 : Fin 128 → Fin 16 → EReal) (b0 : Fin 16 → EReal) (W1 : Fin 16 → Fin 128 → EReal) (b1 : Fin 128 → EReal)

/-- A column `j < 16` of the padded hidden layer is the plain column. -/
theorem hidK_lt (k : Fin 10000) (j : Fin 32) (hj : j.val < 16) :
    hidK h W0 b0 k j = hidR h W0 b0 k ⟨j.val, hj⟩ := by
  unfold hidK hidR w0p b0p
  simp only [dif_pos hj]

/-- A column `j < 16` of the padded activation is the plain column. -/
theorem actK_lt (k : Fin 10000) (j : Fin 32) (hj : j.val < 16) :
    actK a h W0 b0 k j = actR a h W0 b0 k ⟨j.val, hj⟩ := by
  unfold actK actR
  rw [if_neg (by omega)]
  simp only [hidK_lt h W0 b0 _ j hj]

/-- Column `16` of the padded activation is the constant one. -/
theorem actK_eq (k : Fin 10000) (j : Fin 32) (hj : j.val = 16) : actK a h W0 b0 k j = 1 := by
  unfold actK
  rw [if_pos hj]

/-- The term of a column `j < 16`. -/
theorem term_lt (r : Fin 10000) (c : Fin 128) (j : Fin 32) (hj : j.val < 16) :
    (∑ k : Fin 10000, a r k * actK a h W0 b0 k j) * w1p W1 b1 j c
      = (∑ k : Fin 10000, a r k * actR a h W0 b0 k ⟨j.val, hj⟩) * W1 ⟨j.val, hj⟩ c := by
  simp only [actK_lt a h W0 b0 _ j hj]
  unfold w1p
  rw [dif_pos hj]

/-- The term of column `16`: the ones column against the bias row. -/
theorem term_eq (r : Fin 10000) (c : Fin 128) (j : Fin 32) (hj : j.val = 16) :
    (∑ k : Fin 10000, a r k * actK a h W0 b0 k j) * w1p W1 b1 j c
      = (∑ k : Fin 10000, a r k * 1) * b1 c := by
  simp only [actK_eq a h W0 b0 _ j hj]
  unfold w1p
  rw [dif_neg (by omega), if_pos hj]

/-- The term of a column `j > 16` vanishes: its second-layer weight is zero. -/
theorem term_gt (r : Fin 10000) (c : Fin 128) (j : Fin 32) (hj : 16 < j.val) :
    (∑ k : Fin 10000, a r k * actK a h W0 b0 k j) * w1p W1 b1 j c = 0 := by
  unfold w1p
  rw [dif_neg (by omega), if_neg (by omega), mul_zero]

/-- The padded result, with the padding removed. -/
theorem outK_unpad (r : Fin 10000) (c : Fin 128) :
    outK a h W0 b0 W1 b1 r c
      = (∑ i : Fin 16, (∑ k : Fin 10000, a r k * actR a h W0 b0 k i) * W1 i c)
          + (∑ k : Fin 10000, a r k * 1) * b1 c := by
  unfold outK
  have hsplit := Fin.sum_univ_add (a := 16) (b := 16)
    (fun j : Fin (16 + 16) => (∑ k : Fin 10000, a r k * actK a h W0 b0 k j) * w1p W1 b1 j c)
  refine hsplit.trans (congrArg₂ (· + ·) ?_ ?_)
  · refine Finset.sum_congr rfl fun i _ => ?_
    exact term_lt a h W0 b0 W1 b1 r c (Fin.castAdd 16 i) i.isLt
  · rw [Fin.sum_univ_succ]
    have hz : ∑ i : Fin 15, (∑ k : Fin 10000, a r k * actK a h W0 b0 k (Fin.natAdd 16 i.succ))
        * w1p W1 b1 (Fin.natAdd 16 i.succ) c = 0 := by
      refine Finset.sum_eq_zero fun i _ => ?_
      refine term_gt a h W0 b0 W1 b1 r c (Fin.natAdd 16 i.succ) ?_
      simp only [Fin.coe_natAdd, Fin.val_succ]
      omega
    rw [hz, add_zero]
    exact term_eq a h W0 b0 W1 b1 r c (Fin.natAdd 16 (0 : Fin 16)) rfl

end Padding

/-! ### The law -/

/-- On real-valued data the padded two-layer graph convolution is the plain one. -/
theorem outK_eq_outR (a : Fin 10000 → Fin 10000 → EReal) (h : Fin 10000 → Fin 128 → EReal)
    (W0 : Fin 128 → Fin 16 → EReal) (b0 : Fin 16 → EReal) (W1 : Fin 16 → Fin 128 → EReal) (b1 : Fin 128 → EReal)
    (ha : ∀ i j, ∃ x : ℝ, a i j = (x : EReal)) (hh : ∀ i j, ∃ x : ℝ, h i j = (x : EReal))
    (hW0 : ∀ i j, ∃ x : ℝ, W0 i j = (x : EReal)) (hb0 : ∀ j, ∃ x : ℝ, b0 j = (x : EReal))
    (hW1 : ∀ i j, ∃ x : ℝ, W1 i j = (x : EReal)) (hb1 : ∀ j, ∃ x : ℝ, b1 j = (x : EReal))
    (r : Fin 10000) (c : Fin 128) : outK a h W0 b0 W1 b1 r c = outR a h W0 b0 W1 b1 r c := by
  -- the plain activation is real: sums, products and maxima of reals
  have hhid : ∀ k j, IsReal (hidR h W0 b0 k j) := fun k j =>
    (IsReal.sum _ _ fun d _ => IsReal.mul (hh k d) (hW0 d j)).add (hb0 j)
  have hact : ∀ k j, IsReal (actR a h W0 b0 k j) := fun k j =>
    (IsReal.sum _ _ fun k' _ => IsReal.mul (ha k k') (hhid k' j)).max isReal_zero
  choose α hα using fun k => ha r k
  choose act hact' using hact
  choose w hw using fun j => hW1 j c
  obtain ⟨b, hb⟩ := hb1 c
  rw [outK_unpad]
  unfold outR linR
  simp only [hα, hact', hw, hb]
  exact distrib_law α act w b

end Cert.Spec
-- ==== Proof.Finite.lean ====
/-
  The printed precondition, read back: when the conjunction of the six `all(|x| < +inf)` tests is one, every entry
  of every argument array is a real number (neither of the two infinities).
-/
import proofs.«176305_g24318104830749_cont_sun_m_1374_5_alg».proof.Defs
import Idealize.ShloMosaic.Lib.ReduceAll

namespace Cert.Finite

open Idealize.ShloMosaic Idealize.SL.Sem

instance : Subsingleton Cert.Pre_finite_inputs.S_.Idx := ⟨fun a b => funext fun d => d.elim0⟩

/-- An extended real whose absolute value `max x (-x)` is below the pattern of `+inf` is a real number. -/
theorem real_of_abs_lt (x : EReal)
    (hx : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at hx
  induction x using EReal.rec with
  | bot => simp [Ideal.cmp] at hx
  | coe y => exact ⟨y, rfl⟩
  | top => simp [Ideal.cmp] at hx

/-- One `|x| < +inf` test that came out one, at an index. -/
theorem real_of_test {s : Shape} (x : FVec Ideal s .f32) (dims : Fin Cert.Pre_finite_inputs.S_.rank → Fin s.rank)
    (hb : Cert.Pre_finite_inputs.S_.BroadcastsInDim s dims) (i : s.Idx)
    (h : cmpf .olt (Host.absf x) (broadcastInDim s dims hb (constant Cert.Pre_finite_inputs.S_ .f32 0x7F800000#32)) i = 1#1) :
    ∃ y : ℝ, x i = (y : EReal) :=
  real_of_abs_lt (x i) h

/-- The precondition gives: every entry of the six argument arrays is a real number. -/
theorem finite_of_pre [Cert.Pre_finite_inputs.Facts]
    (x0 : FVec Ideal Cert.Pre_finite_inputs.S10000x10000 .f32) (x1 : FVec Ideal Cert.Pre_finite_inputs.S10000x128 .f32)
    (x2 : FVec Ideal Cert.Pre_finite_inputs.S128x16 .f32) (x3 : FVec Ideal Cert.Pre_finite_inputs.S16 .f32)
    (x4 : FVec Ideal Cert.Pre_finite_inputs.S16x128 .f32) (x5 : FVec Ideal Cert.Pre_finite_inputs.S128 .f32)
    (hpre : Cert.Pre_finite_inputs.fn (F := Ideal) x0 x1 x2 x3 x4 x5 = (fun _ => 1#1)) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) ∧ (∀ i, ∃ y : ℝ, x4 i = (y : EReal)) ∧ (∀ i, ∃ y : ℝ, x5 i = (y : EReal)) := by
  have h := congrFun hpre (fun d => d.elim0 : Cert.Pre_finite_inputs.S_.Idx)
  dsimp only [Cert.Pre_finite_inputs.fn, Cert.Pre_finite_inputs.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_test x0 _ _ i (Host.reduce_andi_all _ _ _ _ _ h0 i),
    fun i => real_of_test x1 _ _ i (Host.reduce_andi_all _ _ _ _ _ h1 i),
    fun i => real_of_test x2 _ _ i (Host.reduce_andi_all _ _ _ _ _ h2 i),
    fun i => real_of_test x3 _ _ i (Host.reduce_andi_all _ _ _ _ _ h3 i),
    fun i => real_of_test x4 _ _ i (Host.reduce_andi_all _ _ _ _ _ h4 i),
    fun i => real_of_test x5 _ _ i (Host.reduce_andi_all _ _ _ _ _ h5 i)⟩

/-- The same, for the idealized kernel's precondition on a memory: at every device the six argument arrays
    hold real numbers only. -/
theorem finite_of_Pre_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ y : ℝ, (m ((c.tc : Thread Cert.KernelIdeal.nD Cert.KernelIdeal.τ).loc Cert.KernelIdeal.main_arg0) : FVec Ideal Cert.Pre_finite_inputs.S10000x10000 .f32) i = (y : EReal))
    ∧ (∀ i, ∃ y : ℝ, (m ((c.tc : Thread Cert.KernelIdeal.nD Cert.KernelIdeal.τ).loc Cert.KernelIdeal.main_arg1) : FVec Ideal Cert.Pre_finite_inputs.S10000x128 .f32) i = (y : EReal))
    ∧ (∀ i, ∃ y : ℝ, (m ((c.tc : Thread Cert.KernelIdeal.nD Cert.KernelIdeal.τ).loc Cert.KernelIdeal.main_arg2) : FVec Ideal Cert.Pre_finite_inputs.S128x16 .f32) i = (y : EReal))
    ∧ (∀ i, ∃ y : ℝ, (m ((c.tc : Thread Cert.KernelIdeal.nD Cert.KernelIdeal.τ).loc Cert.KernelIdeal.main_arg3) : FVec Ideal Cert.Pre_finite_inputs.S16 .f32) i = (y : EReal))
    ∧ (∀ i, ∃ y : ℝ, (m ((c.tc : Thread Cert.KernelIdeal.nD Cert.KernelIdeal.τ).loc Cert.KernelIdeal.main_arg4) : FVec Ideal Cert.Pre_finite_inputs.S16x128 .f32) i = (y : EReal))
    ∧ (∀ i, ∃ y : ℝ, (m ((c.tc : Thread Cert.KernelIdeal.nD Cert.KernelIdeal.τ).loc Cert.KernelIdeal.main_arg5) : FVec Ideal Cert.Pre_finite_inputs.S128 .f32) i = (y : EReal)) :=
  finite_of_pre _ _ _ _ _ _ (hpre c)

end Cert.Finite
-- ==== Proof.lean ====
/-
  A two-layer graph convolution, `out = a · (relu(a · (h · W0 + b0)) · W1 + b1)`, computed by one kernel on a 2 × 25 grid
  against the same formula computed by the host.

  The kernel pads the hidden width from 16 to 32. In its first phase it fills a scratch with the padded hidden layer
  `h · w0p + b0p` (once, at the first point) and, one 400-row block per point, a second scratch with the padded activation
  `[max (a · hid) 0 | 1 | 0 …]`; in its second phase each point stores the 400-row block `(a_blk · act) · w1p` of the
  result, where `w1p` carries `b1` as row 16. So the result is `Spec.outK` of the arguments (Proof/KernelValue.lean, over
  the frame of Proof/Body.lean), and the host's is `Spec.outR` (Proof/RefValue.lean, over the reference's run read one
  operation at a time). The two agree when every entry of every argument is a real number (Proof/SpecLaw.lean:
  the ones column contributes `rowsum(a) · b1`, the zero columns nothing, and the finite sums distribute), which is
  what the precondition says (Proof/Finite.lean).

  The three frames: the kernel's at both instances is the hand frame of Proof/Body.lean (the same text read at the
  word-level instance in Proof/KBody.lean); the reference's is its run with the result dropped. The idealization
  rewrote nothing, so `preserves` is trivial.
-/
import proofs.«176305_g24318104830749_cont_sun_m_1374_5_alg».proof.Defs
import proofs.«176305_g24318104830749_cont_sun_m_1374_5_alg».proof.Proof.Gen.Kernel
import proofs.«176305_g24318104830749_cont_sun_m_1374_5_alg».proof.Proof.Gen.KernelIdeal
import proofs.«176305_g24318104830749_cont_sun_m_1374_5_alg».proof.Proof.Gen.ReferenceIdeal
import proofs.«176305_g24318104830749_cont_sun_m_1374_5_alg».proof.Proof.Gen.Pre_finite_inputs
import proofs.«176305_g24318104830749_cont_sun_m_1374_5_alg».proof.Proof.Gen.ReferenceIdeal.Run
import proofs.«176305_g24318104830749_cont_sun_m_1374_5_alg».proof.Proof.Gen.ReferenceIdeal.Read
import proofs.«176305_g24318104830749_cont_sun_m_1374_5_alg».proof.Proof.KBody
import proofs.«176305_g24318104830749_cont_sun_m_1374_5_alg».proof.Proof.KernelValue
import proofs.«176305_g24318104830749_cont_sun_m_1374_5_alg».proof.Proof.RefValue
import proofs.«176305_g24318104830749_cont_sun_m_1374_5_alg».proof.Proof.SpecLaw
import proofs.«176305_g24318104830749_cont_sun_m_1374_5_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Spec.outK` of the arguments: the kernel by its value, the reference
    because its `Spec.outR` is `Spec.outK` on real entries. -/
theorem algebraic : Cert.algebraic_KernelIdeal_ReferenceIdeal := by
  intro m ρ m' ρ' hpre hagree
  refine ⟨fun c => Cert.KernelIdeal.Hand.GK m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5, Cert.ReferenceIdeal.Read.val_main_v10_eq]
  funext i
  obtain ⟨r, q, rfl⟩ : ∃ (r : Fin 10000) (q : Fin 128), i = ix2 r q := ⟨i 0, i 1, eq_ix2 i⟩
  rw [Cert.ReferenceIdeal.RefValue.ref_apply]
  obtain ⟨f0, f1, f2, f3, f4, f5⟩ := Cert.Finite.finite_of_Pre_KernelIdeal m hpre c
  exact (Cert.Spec.outK_eq_outR (Cert.KernelIdeal.Hand.aA m c) (Cert.KernelIdeal.Hand.hA m c) (Cert.KernelIdeal.Hand.w0A m c)
    (Cert.KernelIdeal.Hand.b0A m c) (Cert.KernelIdeal.Hand.w1A m c) (Cert.KernelIdeal.Hand.b1A m c)
    (fun i j => f0 (ix2 i j)) (fun i j => f1 (ix2 i j)) (fun i j => f2 (ix2 i j)) (fun j => f3 (ix1 j))
    (fun i j => f4 (ix2 i j)) (fun j => f5 (ix1 j)) r q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
